-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v117)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v117) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S4x128x128 : Shape := ⟨3, ![4, 128, 128]⟩
abbrev S4x128 : Shape := ⟨2, ![4, 128]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg6 : FVec F S128 .f32) (main_arg7 : FVec F S128x10 .f32) (main_arg8 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x10 .f32 := Host.absf main_arg7
  let main_cst_8 : FVec F S_ .f32 := constant S_ .f32 0x7F800000#32
  let main_v25 : FVec F S128x10 .f32 := broadcastInDim S128x10 ![] bcast_S_S128x10 main_cst_8
  let main_v26 : IVec S128x10 1 := cmpf .olt main_v24 main_v25
  let main_c_9 : IVec S_ 1 := constantI S_ 1 1#1
  let main_v27 : IVec S_ 1 := (fun x v => Host.reduce IntOp.andi x v reducesTo_S128x10_S_d0_1 h_S_) main_v26 main_c_9
  let main_v28 : IVec S_ 1 := andi main_v23 main_v27
  let main_v29 : FVec F S10 .f32 := Host.absf main_arg8
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : IVec S50000 32) (main_arg3 : FVec F S4x128x128 .f32) (main_arg4 : FVec F S4x128 .f32) (main_arg5 : FVec F S128x128 .f32) (main_arg6 : FVec F S128 .f32) (main_arg7 : FVec F S128x10 .f32) (main_arg8 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S4x128x128 .f32 := Host.absf main_arg3
  let main_cst_0 : FVec F S_ .f32 := constant S_ .f32 0x7F800000#32
  let main_v5 : FVec F S4x128x128 .f32 := broadcastInDim S4x128x128 ![] bcast_S_S4x128x128 main_cst_0
  let main_v6 : IVec S4x128x128 1 := cmpf .olt main_v4 main_v5
  let main_c_1 : IVec S_ 1 := constantI S_ 1 1#1
  let main_v7 : IVec S_ 1 := (fun x v => Host.reduce IntOp.andi x v reducesTo_S4x128x128_S_d0_1_2 h_S_) main_v6 main_c_1
  let main_v8 : IVec S_ 1 := andi main_v3 main_v7
  let main_v9 : FVec F S4x128 .f32 := Host.absf main_arg4
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S4x128x128 : Shape := ⟨3, ![4, 128, 128]⟩
abbrev S4x128 : Shape := ⟨2, ![4, 128]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1x128x128 : Shape := ⟨3, ![1, 128, 128]⟩
abbrev S10000x128 : Shape := ⟨2, ![10000, 128]⟩
abbrev S850000x128 : Shape := ⟨2, ![850000, 128]⟩
abbrev S1x128 : Shape := ⟨2, ![1, 128]⟩
abbrev S500x128 : Shape := ⟨2, ![500, 128]⟩
abbrev S50000x1 : Shape := ⟨2, ![50000, 1]⟩
abbrev S500 : Shape := ⟨1, ![500]⟩
abbrev S500x1 : Shape := ⟨2, ![500, 1]⟩
abbrev S500x10 : Shape := ⟨2, ![500, 10]⟩
abbrev S1x10 : Shape := ⟨2, ![1, 10]⟩

abbrev nBuf : Space → Nat
  | .hbm => 154
  | .vmem => 46
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S4x128x128, .f32⟩
  | 4 => ⟨S4x128, .f32⟩
  | 5 => ⟨S128x128, .f32⟩
  | 6 => ⟨S128, .f32⟩
  | 7 => ⟨S128x10, .f32⟩
  | 8 => ⟨S10, .f32⟩
  | 9 => ⟨S50000, .i32⟩
  | 10 => ⟨S1x800000, .i32⟩
  | 11 => ⟨S800000, .i32⟩
  | 12 => ⟨S850000, .i32⟩
  | 13 => ⟨S1x800000, .i32⟩
  | 14 => ⟨S800000, .i32⟩
  | 15 => ⟨S850000, .i32⟩
  | 16 => ⟨S_, .f32⟩
  | 17 => ⟨S850000, .f32⟩
  | 18 => ⟨S_, .f32⟩
  | 19 => ⟨S50000, .f32⟩
  | 20 => ⟨S850000x1, .i32⟩
  | 21 => ⟨S50000, .f32⟩
  | 22 => ⟨S_, .f32⟩
  | 23 => ⟨S50000, .f32⟩
  | 24 => ⟨S50000, .i1⟩
  | 25 => ⟨S_, .f32⟩
  | 26 => ⟨S50000, .f32⟩
  | 27 => ⟨S50000, .f32⟩
  | 28 => ⟨S50000, .f32⟩
  | 29 => ⟨S_, .f32⟩
  | 30 => ⟨S_, .f32⟩
  | 31 => ⟨S50000, .f32⟩
  | 32 => ⟨S50000, .f32⟩
  | 33 => ⟨S_, .i32⟩
  | 34 => ⟨S850000, .i32⟩
  | 35 => ⟨S850000, .i1⟩
  | 36 => ⟨S_, .i32⟩
  | 37 => ⟨S850000, .i32⟩
  | 38 => ⟨S850000, .i32⟩
  | 39 => ⟨S850000, .i32⟩
  | 40 => ⟨S850000x1, .i32⟩
  | 41 => ⟨S850000, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000, .f32⟩
  | 51 => ⟨S850000, .f32⟩
  | 52 => ⟨S850000x1, .f32⟩
  | 53 => ⟨S1x128x128, .f32⟩
  | 54 => ⟨S128x128, .f32⟩
  | 55 => ⟨S50000x128, .f32⟩
  | 56 => ⟨S_, .i32⟩
  | 57 => ⟨S850000, .i32⟩
  | 58 => ⟨S850000, .i1⟩
  | 59 => ⟨S_, .i32⟩
  | 60 => ⟨S850000, .i32⟩
  | 61 => ⟨S850000, .i32⟩
  | 62 => ⟨S850000, .i32⟩
  | 63 => ⟨S850000x1, .i32⟩
  | 64 => ⟨S850000x128, .f32⟩
  | 65 => ⟨S850000x128, .f32⟩
  | 66 => ⟨S850000x128, .f32⟩
  | 67 => ⟨S_, .f32⟩
  | 68 => ⟨S50000x128, .f32⟩
  | 69 => ⟨S850000x1, .i32⟩
  | 70 => ⟨S50000x128, .f32⟩
  | 71 => ⟨S1x128, .f32⟩
  | 72 => ⟨S128, .f32⟩
  | 73 => ⟨S50000x128, .f32⟩
  | 74 => ⟨S1x128x128, .f32⟩
  | 75 => ⟨S128x128, .f32⟩
  | 76 => ⟨S50000x128, .f32⟩
  | 77 => ⟨S_, .i32⟩
  | 78 => ⟨S850000, .i32⟩
  | 79 => ⟨S850000, .i1⟩
  | 80 => ⟨S_, .i32⟩
  | 81 => ⟨S850000, .i32⟩
  | 82 => ⟨S850000, .i32⟩
  | 83 => ⟨S850000, .i32⟩
  | 84 => ⟨S850000x1, .i32⟩
  | 85 => ⟨S850000x128, .f32⟩
  | 86 => ⟨S850000x128, .f32⟩
  | 87 => ⟨S850000x128, .f32⟩
  | 88 => ⟨S_, .f32⟩
  | 89 => ⟨S50000x128, .f32⟩
  | 90 => ⟨S850000x1, .i32⟩
  | 91 => ⟨S50000x128, .f32⟩
  | 92 => ⟨S1x128, .f32⟩
  | 93 => ⟨S128, .f32⟩
  | 94 => ⟨S50000x128, .f32⟩
  | 95 => ⟨S1x128x128, .f32⟩
  | 96 => ⟨S128x128, .f32⟩
  | 97 => ⟨S50000x128, .f32⟩
  | 98 => ⟨S_, .i32⟩
  | 99 => ⟨S850000, .i32⟩
  | 100 => ⟨S850000, .i1⟩
  | 101 => ⟨S_, .i32⟩
  | 102 => ⟨S850000, .i32⟩
  | 103 => ⟨S850000, .i32⟩
  | 104 => ⟨S850000, .i32⟩
  | 105 => ⟨S850000x1, .i32⟩
  | 106 => ⟨S850000x128, .f32⟩
  | 107 => ⟨S850000x128, .f32⟩
  | 108 => ⟨S850000x128, .f32⟩
  | 109 => ⟨S_, .f32⟩
  | 110 => ⟨S50000x128, .f32⟩
  | 111 => ⟨S850000x1, .i32⟩
  | 112 => ⟨S50000x128, .f32⟩
  | 113 => ⟨S1x128, .f32⟩
  | 114 => ⟨S128, .f32⟩
  | 115 => ⟨S50000x128, .f32⟩
  | 116 => ⟨S1x128x128, .f32⟩
  | 117 => ⟨S128x128, .f32⟩
  | 118 => ⟨S50000x128, .f32⟩
  | 119 => ⟨S_, .i32⟩
  | 120 => ⟨S850000, .i32⟩
  | 121 => ⟨S850000, .i1⟩
  | 122 => ⟨S_, .i32⟩
  | 123 => ⟨S850000, .i32⟩
  | 124 => ⟨S850000, .i32⟩
  | 125 => ⟨S850000, .i32⟩
  | 126 => ⟨S850000x1, .i32⟩
  | 127 => ⟨S850000x128, .f32⟩
  | _ => ⟨S50000x128, .f32⟩

abbrev hbmTy0_1 (i : Nat) : BufTy := match i % 128 with
  | 0 => ⟨S850000x128, .f32⟩
  | 1 => ⟨S850000x128, .f32⟩
  | 2 => ⟨S_, .f32⟩
  | 3 => ⟨S50000x128, .f32⟩
  | 4 => ⟨S850000x1, .i32⟩
  | 5 => ⟨S50000x128, .f32⟩
  | 6 => ⟨S1x128, .f32⟩
  | 7 => ⟨S128, .f32⟩
  | 8 => ⟨S50000x128, .f32⟩
  | 9 => ⟨S_, .f32⟩
  | 10 => ⟨S500x128, .f32⟩
  | 11 => ⟨S50000x1, .i32⟩
  | 12 => ⟨S500x128, .f32⟩
  | 13 => ⟨S_, .f32⟩
  | 14 => ⟨S50000, .f32⟩
  | 15 => ⟨S_, .f32⟩
  | 16 => ⟨S500, .f32⟩
  | 17 => ⟨S50000x1, .i32⟩
  | 18 => ⟨S500, .f32⟩
  | 19 => ⟨S_, .f32⟩
  | 20 => ⟨S500, .f32⟩
  | 21 => ⟨S500, .f32⟩
  | 22 => ⟨S500x1, .f32⟩
  | 23 => ⟨S500x128, .f32⟩
  | 24 => ⟨S500x128, .f32⟩
  | 25 => ⟨S500x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S128x128, .f32⟩
  | .local _ .vmem, ⟨23, _⟩ => ⟨S10000x128, .f32⟩
  | .local _ .vmem, ⟨24, _⟩ => ⟨S10000x128, .f32⟩
  | .local _ .vmem, ⟨25, _⟩ => ⟨S10000x128, .f32⟩
  | .local _ .vmem, ⟨26, _⟩ => ⟨S10000x128, .f32⟩
  | .local _ .vmem, ⟨27, _⟩ => ⟨S128, .f32⟩
  | .local _ .vmem, ⟨28, _⟩ => ⟨S10000x128, .f32⟩
  | .local _ .vmem, ⟨29, _⟩ => ⟨S10000x128, .f32⟩
  | .local _ .vmem, ⟨30, _⟩ => ⟨S10000x128, .f32⟩
  | .local _ .vmem, ⟨31, _⟩ => ⟨S10000x128, .f32⟩
  | .local _ .vmem, ⟨32, _⟩ => ⟨S128x128, .f32⟩
  | .local _ .vmem, ⟨33, _⟩ => ⟨S10000x128, .f32⟩
  | .local _ .vmem, ⟨34, _⟩ => ⟨S10000x128, .f32⟩
  | .local _ .vmem, ⟨35, _⟩ => ⟨S10000x128, .f32⟩
  | .local _ .vmem, ⟨36, _⟩ => ⟨S10000x128, .f32⟩
  | .local _ .vmem, ⟨37, _⟩ => ⟨S128, .f32⟩
  | .local _ .vmem, ⟨38, _⟩ => ⟨S10000x128, .f32⟩
  | .local _ .vmem, ⟨39, _⟩ => ⟨S10000x128, .f32⟩
  | .local _ .vmem, ⟨40, _⟩ => ⟨S500x128, .f32⟩
  | .local _ .vmem, ⟨41, _⟩ => ⟨S128x128, .f32⟩
  | .local _ .vmem, ⟨42, _⟩ => ⟨S128, .f32⟩
  | .local _ .vmem, ⟨43, _⟩ => ⟨S128x10, .f32⟩
  | .local _ .vmem, ⟨44, _⟩ => ⟨S10, .f32⟩
  | .local _ .vmem, ⟨45, _⟩ => ⟨S500x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_7 : Ref sig .tc := ⟨.hbm, 56, rfl⟩
abbrev main_v36 : Ref sig .tc := ⟨.hbm, 57, rfl⟩
abbrev main_v37 : Ref sig .tc := ⟨.hbm, 58, rfl⟩
abbrev main_c_8 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_9 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_c_10 : Ref sig .tc := ⟨.hbm, 77, rfl⟩
abbrev main_v54 : Ref sig .tc := ⟨.hbm, 78, rfl⟩
abbrev main_v55 : Ref sig .tc := ⟨.hbm, 79, rfl⟩
abbrev main_c_11 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_12 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_c_13 : Ref sig .tc := ⟨.hbm, 98, rfl⟩
abbrev main_v72 : Ref sig .tc := ⟨.hbm, 99, rfl⟩
abbrev main_v73 : Ref sig .tc := ⟨.hbm, 100, rfl⟩
abbrev main_c_14 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_15 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_c_16 : Ref sig .tc := ⟨.hbm, 119, rfl⟩
abbrev main_v90 : Ref sig .tc := ⟨.hbm, 120, rfl⟩
abbrev main_v91 : Ref sig .tc := ⟨.hbm, 121, rfl⟩
abbrev main_c_17 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_cst_18 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_cst_19 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_cst_20 : Ref sig .tc := ⟨.hbm, 141, rfl⟩
abbrev main_v108 : Ref sig .tc := ⟨.hbm, 142, rfl⟩
abbrev main_cst_21 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_cst_22 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg2_1 : Ref sig .tc := ⟨.vmem, 39, rfl⟩
abbrev cc8_stg0_0 : Ref sig .tc := ⟨.vmem, 40, rfl⟩
abbrev cc8_stg1_0 : Ref sig .tc := ⟨.vmem, 41, rfl⟩
abbrev cc8_stg2_0 : Ref sig .tc := ⟨.vmem, 42, rfl⟩
abbrev cc8_stg3_0 : Ref sig .tc := ⟨.vmem, 43, rfl⟩
abbrev cc8_stg4_0 : Ref sig .tc := ⟨.vmem, 44, rfl⟩
abbrev cc8_stg5_0 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39
abbrev cc8_sem0_0 : DmaSem sig := 40
abbrev cc8_sem1_0 : DmaSem sig := 41
abbrev cc8_sem2_0 : DmaSem sig := 42
abbrev cc8_sem3_0 : DmaSem sig := 43
abbrev cc8_sem4_0 : DmaSem sig := 44
abbrev cc8_sem5_0 : DmaSem sig := 45

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![5], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![5], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S10000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 1 → Memref sig .tc .vmem S500x128 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![false]

abbrev stage8_1 : Fin 1 → Memref sig .tc .vmem S128x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S128x10 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S10 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S500x10 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  slices_S4x128x128_S1x128x128_0_0_0 : S4x128x128.Slices ![0, 0, 0] S1x128x128
  shapeCasts_S1x128x128_S128x128 : S1x128x128.ShapeCasts S128x128
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  slices_S4x128_S1x128_0_0 : S4x128.Slices ![0, 0] S1x128
  shapeCasts_S1x128_S128 : S1x128.ShapeCasts S128
  shapeCasts_S10000x128_S10000x128 : S10000x128.ShapeCasts S10000x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S10000x128 : S1x128.Broadcasts S10000x128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S_S500x128 : S_.BroadcastsInDim S500x128 (![] : Fin 0 → Fin S500x128.rank)
  bcast_S50000_S50000x1_0 : S50000.BroadcastsInDim S50000x1 (![0] : Fin 1 → Fin S50000x1.rank)
  bcast_S_S500 : S_.BroadcastsInDim S500 (![] : Fin 0 → Fin S500.rank)
  bcast_S500_S500x1_0 : S500.BroadcastsInDim S500x1 (![0] : Fin 1 → Fin S500x1.rank)
  bcast_S500x1_S500x128_0_1 : S500x1.BroadcastsInDim S500x128 (![0, 1] : Fin 2 → Fin S500x128.rank)
  inb_S500x128_S500x128_0_0 : ∀ a, (![0, 0] : Fin 2 → Nat) a + S500x128.size a ≤ S500x128.size a
  h_S500x128 : 0 < S500x128.numel
  shapeCasts_S500x128_S500x128 : S500x128.ShapeCasts S500x128
  broadcasts_S1x128_S500x128 : S1x128.Broadcasts S500x128
  inb_S128x10_S128x10_0_0 : ∀ a, (![0, 0] : Fin 2 → Nat) a + S128x10.size a ≤ S128x10.size a
  h_S128x10 : 0 < S128x10.numel
  inb_S10_S10_0 : ∀ a, (![0] : Fin 1 → Nat) a + S10.size a ≤ S10.size a
  h_S10 : 0 < S10.numel
  shapeCasts_S10_S1x10 : S10.ShapeCasts S1x10
  broadcasts_S1x10_S500x10 : S1x10.Broadcasts S500x10
  inb_S500x10_S500x10_0_0 : ∀ a, (![0, 0] : Fin 2 → Nat) a + S500x10.size a ≤ S500x10.size a
  h_S500x10 : 0 < S500x10.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S10000x128_S128x128_S10000x128_1_0_0_1_n_n_wf : DotDims.WF S10000x128 S128x128 S10000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S500x128_S50000x1_S50000x128_1_0_0_1_wf : ScatterDims.WF S500x128 S50000x1 S50000x128 [1] [0] [0] 1
  scatter_S500_S50000x1_S50000_n_0_0_1_wf : ScatterDims.WF S500 S50000x1 S50000 [] [0] [0] 1
  dot_S500x128_S128x128_S500x128_1_0_0_1_n_n_wf : DotDims.WF S500x128 S128x128 S500x128 [1] [0] [0] [1] [] []
  dot_S500x128_S128x10_S500x10_1_0_0_1_n_n_wf : DotDims.WF S500x128 S128x10 S500x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S50000x128.size a
  hwx0_2 : ∀ i : grid0.Coords, EltTy.bits .f32 = 32 ∨ (Rect.block (s := S50000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S50000x128.size a
  hwx1_2 : ∀ i : grid1.Coords, EltTy.bits .f32 = 32 ∨ (Rect.block (s := S50000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .f32 = 32 ∨ (Rect.block (s := S50000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S50000x128.size a
  hwx2_2 : ∀ i : grid2.Coords, EltTy.bits .f32 = 32 ∨ (Rect.block (s := S50000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S50000x128.size a
  hwx3_0 : ∀ i : grid3.Coords, EltTy.bits .f32 = 32 ∨ (Rect.block (s := S50000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128.size a ≤ S128.size a
  hwx3_1 : ∀ i : grid3.Coords, EltTy.bits .f32 = 32 ∨ (Rect.block (s := S128) S128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S50000x128.size a
  hwx3_2 : ∀ i : grid3.Coords, EltTy.bits .f32 = 32 ∨ (Rect.block (s := S50000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S50000x128.size a
  hwx4_0 : ∀ i : grid4.Coords, EltTy.bits .f32 = 32 ∨ (Rect.block (s := S50000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x128.size a ≤ S50000x128.size a
  hwx4_2 : ∀ i : grid4.Coords, EltTy.bits .f32 = 32 ∨ (Rect.block (s := S50000x128) S10000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S50000x128.size a
  hwx5_0 : ∀ i : grid5.Coords, EltTy.bits .f32 = 32 ∨ (Rect.block (s := S50000x128) S10000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128.size a ≤ S128.size a
  hwx5_1 : ∀ i : grid5.Coords, EltTy.bits .f32 = 32 ∨ (Rect.block (s := S128) S128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x128.size a ≤ S50000x128.size a
  hwx5_2 : ∀ i : grid5.Coords, EltTy.bits .f32 = 32 ∨ (Rect.block (s := S50000x128) S10000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x128.size a ≤ S50000x128.size a
  hwx6_0 : ∀ i : grid6.Coords, EltTy.bits .f32 = 32 ∨ (Rect.block (s := S50000x128) S10000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x128.size a ≤ S50000x128.size a
  hwx6_2 : ∀ i : grid6.Coords, EltTy.bits .f32 = 32 ∨ (Rect.block (s := S50000x128) S10000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x128.size a ≤ S50000x128.size a
  hwx7_0 : ∀ i : grid7.Coords, EltTy.bits .f32 = 32 ∨ (Rect.block (s := S50000x128) S10000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128.size a ≤ S128.size a
  hwx7_1 : ∀ i : grid7.Coords, EltTy.bits .f32 = 32 ∨ (Rect.block (s := S128) S128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S10000x128.size a ≤ S50000x128.size a
  hwx7_2 : ∀ i : grid7.Coords, EltTy.bits .f32 = 32 ∨ (Rect.block (s := S50000x128) S10000x128.size (cc7_transform_2 i) (hinb7_2 i)).WholeWords (EltTy.packing .f32)
  hrank8 : 0 < grid8.rank
  hstage8_0 : ∀ j, (stage8_0 j).IsWhole
  nbuf8_0 : grid8.bufCount reads8_0 true = 1
  hreads8_0 : ∀ i i' : grid8.Coords, (∀ a, reads8_0 a = true → i a = i' a) → cc8_transform_0 i = cc8_transform_0 i'
  hinb8_0 : ∀ (i : grid8.Coords) a, (cc8_transform_0 i a + 1) * S500x128.size a ≤ S500x128.size a
  hwx8_0 : ∀ i : grid8.Coords, EltTy.bits .f32 = 32 ∨ (Rect.block (s := S500x128) S500x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x128.size a ≤ S128x128.size a
  hwx8_1 : ∀ i : grid8.Coords, EltTy.bits .f32 = 32 ∨ (Rect.block (s := S128x128) S128x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S128.size a ≤ S128.size a
  hwx8_2 : ∀ i : grid8.Coords, EltTy.bits .f32 = 32 ∨ (Rect.block (s := S128) S128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S128x10.size a ≤ S128x10.size a
  hwx8_3 : ∀ i : grid8.Coords, EltTy.bits .f32 = 32 ∨ (Rect.block (s := S128x10) S128x10.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S10.size a ≤ S10.size a
  hwx8_4 : ∀ i : grid8.Coords, EltTy.bits .f32 = 32 ∨ (Rect.block (s := S10) S10.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S500x10.size a ≤ S500x10.size a
  hwx8_5 : ∀ i : grid8.Coords, EltTy.bits .f32 = 32 ∨ (Rect.block (s := S500x10) S500x10.size (cc8_transform_5 i) (hinb8_5 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S500x128_S50000x1_S50000x128_1_0_0_1 : ScatterDims S500x128 S50000x1 S50000x128 where
  updateWindowDims := [1]
  insertedWindowDims := [0]
  scatterDimsToOperandDims := [0]
  indexVectorDim := 1
  wf := scatter_S500x128_S50000x1_S50000x128_1_0_0_1_wf
def scatter_S500_S50000x1_S50000_n_0_0_1 : ScatterDims S500 S50000x1 S50000 where
  updateWindowDims := []
  insertedWindowDims := [0]
  scatterDimsToOperandDims := [0]
  indexVectorDim := 1
  wf := scatter_S500_S50000x1_S50000_n_0_0_1_wf
def dot_S500x128_S128x128_S500x128_1_0_0_1_n_n : DotDims S500x128 S128x128 S500x128 where
  lhsContracting := [1]
  rhsContracting := [0]
  lhsNonContracting := [0]
  rhsNonContracting := [1]
  lhsBatch := []
  rhsBatch := []
  wf := dot_S500x128_S128x128_S500x128_1_0_0_1_n_n_wf
def dot_S500x128_S128x10_S500x10_1_0_0_1_n_n : DotDims S500x128 S128x10 S500x10 where
  lhsContracting := [1]
  rhsContracting := [0]
  lhsNonContracting := [0]
  rhsNonContracting := [1]
  lhsBatch := []
  rhsBatch := []
  wf := dot_S500x128_S128x10_S500x10_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v34) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v50) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v53) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v65) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v67) S128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v68) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v68) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v70) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v71) S10000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v83) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v85) S128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v86) S10000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v86) S10000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v88) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v89) S10000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v101) S10000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v103) S128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v104) S10000x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v116) S500x128.size cc8_transform_0 reads8_0 false true 1 stage8_0 sem8_0
    hrank8 hreads8_0 hinb8_0 nbuf8_0 (Memref.isWhole_whole _) hwx8_0 hstage8_0

abbrev win8_1 : Pipeline.Window sig grid8 :=
  Pipeline.Window.ofSpec (Memref.whole main_arg5) S128x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_arg6) S128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_arg7) S128x10.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_arg8) S10.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v117) S500x10.size cc8_transform_5 reads8_5 true true 1 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S4x128x128 : Shape := ⟨3, ![4, 128, 128]⟩
abbrev S4x128 : Shape := ⟨2, ![4, 128]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1x128x128 : Shape := ⟨3, ![1, 128, 128]⟩
abbrev S850000x128 : Shape := ⟨2, ![850000, 128]⟩
abbrev S1x128 : Shape := ⟨2, ![1, 128]⟩
abbrev S500x128 : Shape := ⟨2, ![500, 128]⟩
abbrev S50000x1 : Shape := ⟨2, ![50000, 1]⟩
abbrev S500 : Shape := ⟨1, ![500]⟩
abbrev S500x1 : Shape := ⟨2, ![500, 1]⟩
abbrev S500x10 : Shape := ⟨2, ![500, 10]⟩
abbrev S1x10 : Shape := ⟨2, ![1, 10]⟩

abbrev nBuf : Space → Nat
  | .hbm => 184
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S4x128x128, .f32⟩
  | 4 => ⟨S4x128, .f32⟩
  | 5 => ⟨S128x128, .f32⟩
  | 6 => ⟨S128, .f32⟩
  | 7 => ⟨S128x10, .f32⟩
  | 8 => ⟨S10, .f32⟩
  | 9 => ⟨S50000, .i32⟩
  | 10 => ⟨S1x800000, .i32⟩
  | 11 => ⟨S800000, .i32⟩
  | 12 => ⟨S850000, .i32⟩
  | 13 => ⟨S1x800000, .i32⟩
  | 14 => ⟨S800000, .i32⟩
  | 15 => ⟨S850000, .i32⟩
  | 16 => ⟨S_, .f32⟩
  | 17 => ⟨S850000, .f32⟩
  | 18 => ⟨S_, .f32⟩
  | 19 => ⟨S50000, .f32⟩
  | 20 => ⟨S850000x1, .i32⟩
  | 21 => ⟨S50000, .f32⟩
  | 22 => ⟨S_, .f32⟩
  | 23 => ⟨S50000, .f32⟩
  | 24 => ⟨S50000, .i1⟩
  | 25 => ⟨S_, .f32⟩
  | 26 => ⟨S50000, .f32⟩
  | 27 => ⟨S50000, .f32⟩
  | 28 => ⟨S50000, .f32⟩
  | 29 => ⟨S_, .f32⟩
  | 30 => ⟨S_, .f32⟩
  | 31 => ⟨S50000, .f32⟩
  | 32 => ⟨S50000, .f32⟩
  | 33 => ⟨S_, .i32⟩
  | 34 => ⟨S850000, .i32⟩
  | 35 => ⟨S850000, .i1⟩
  | 36 => ⟨S_, .i32⟩
  | 37 => ⟨S850000, .i32⟩
  | 38 => ⟨S850000, .i32⟩
  | 39 => ⟨S850000, .i32⟩
  | 40 => ⟨S850000x1, .i32⟩
  | 41 => ⟨S850000, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000, .f32⟩
  | 51 => ⟨S850000, .f32⟩
  | 52 => ⟨S850000x1, .f32⟩
  | 53 => ⟨S1x128x128, .f32⟩
  | 54 => ⟨S128x128, .f32⟩
  | 55 => ⟨S50000x128, .f32⟩
  | 56 => ⟨S_, .i32⟩
  | 57 => ⟨S850000, .i32⟩
  | 58 => ⟨S850000, .i1⟩
  | 59 => ⟨S_, .i32⟩
  | 60 => ⟨S850000, .i32⟩
  | 61 => ⟨S850000, .i32⟩
  | 62 => ⟨S850000, .i32⟩
  | 63 => ⟨S850000x1, .i32⟩
  | 64 => ⟨S850000x128, .f32⟩
  | 65 => ⟨S850000x128, .f32⟩
  | 66 => ⟨S850000x128, .f32⟩
  | 67 => ⟨S_, .f32⟩
  | 68 => ⟨S50000x128, .f32⟩
  | 69 => ⟨S850000x1, .i32⟩
  | 70 => ⟨S50000x128, .f32⟩
  | 71 => ⟨S1x128, .f32⟩
  | 72 => ⟨S128, .f32⟩
  | 73 => ⟨S1x128, .f32⟩
  | 74 => ⟨S50000x128, .f32⟩
  | 75 => ⟨S50000x128, .f32⟩
  | 76 => ⟨S_, .f32⟩
  | 77 => ⟨S50000x128, .f32⟩
  | 78 => ⟨S50000x128, .f32⟩
  | 79 => ⟨S1x128x128, .f32⟩
  | 80 => ⟨S128x128, .f32⟩
  | 81 => ⟨S50000x128, .f32⟩
  | 82 => ⟨S_, .i32⟩
  | 83 => ⟨S850000, .i32⟩
  | 84 => ⟨S850000, .i1⟩
  | 85 => ⟨S_, .i32⟩
  | 86 => ⟨S850000, .i32⟩
  | 87 => ⟨S850000, .i32⟩
  | 88 => ⟨S850000, .i32⟩
  | 89 => ⟨S850000x1, .i32⟩
  | 90 => ⟨S850000x128, .f32⟩
  | 91 => ⟨S850000x128, .f32⟩
  | 92 => ⟨S850000x128, .f32⟩
  | 93 => ⟨S_, .f32⟩
  | 94 => ⟨S50000x128, .f32⟩
  | 95 => ⟨S850000x1, .i32⟩
  | 96 => ⟨S50000x128, .f32⟩
  | 97 => ⟨S1x128, .f32⟩
  | 98 => ⟨S128, .f32⟩
  | 99 => ⟨S1x128, .f32⟩
  | 100 => ⟨S50000x128, .f32⟩
  | 101 => ⟨S50000x128, .f32⟩
  | 102 => ⟨S_, .f32⟩
  | 103 => ⟨S50000x128, .f32⟩
  | 104 => ⟨S50000x128, .f32⟩
  | 105 => ⟨S1x128x128, .f32⟩
  | 106 => ⟨S128x128, .f32⟩
  | 107 => ⟨S50000x128, .f32⟩
  | 108 => ⟨S_, .i32⟩
  | 109 => ⟨S850000, .i32⟩
  | 110 => ⟨S850000, .i1⟩
  | 111 => ⟨S_, .i32⟩
  | 112 => ⟨S850000, .i32⟩
  | 113 => ⟨S850000, .i32⟩
  | 114 => ⟨S850000, .i32⟩
  | 115 => ⟨S850000x1, .i32⟩
  | 116 => ⟨S850000x128, .f32⟩
  | 117 => ⟨S850000x128, .f32⟩
  | 118 => ⟨S850000x128, .f32⟩
  | 119 => ⟨S_, .f32⟩
  | 120 => ⟨S50000x128, .f32⟩
  | 121 => ⟨S850000x1, .i32⟩
  | 122 => ⟨S50000x128, .f32⟩
  | 123 => ⟨S1x128, .f32⟩
  | 124 => ⟨S128, .f32⟩
  | 125 => ⟨S1x128, .f32⟩
  | 126 => ⟨S50000x128, .f32⟩
  | 127 => ⟨S50000x128, .f32⟩
  | _ => ⟨S50000x128, .f32⟩

abbrev hbmTy0_1 (i : Nat) : BufTy := match i % 128 with
  | 0 => ⟨S_, .f32⟩
  | 1 => ⟨S50000x128, .f32⟩
  | 2 => ⟨S50000x128, .f32⟩
  | 3 => ⟨S1x128x128, .f32⟩
  | 4 => ⟨S128x128, .f32⟩
  | 5 => ⟨S50000x128, .f32⟩
  | 6 => ⟨S_, .i32⟩
  | 7 => ⟨S850000, .i32⟩
  | 8 => ⟨S850000, .i1⟩
  | 9 => ⟨S_, .i32⟩
  | 10 => ⟨S850000, .i32⟩
  | 11 => ⟨S850000, .i32⟩
  | 12 => ⟨S850000, .i32⟩
  | 13 => ⟨S850000x1, .i32⟩
  | 14 => ⟨S850000x128, .f32⟩
  | 15 => ⟨S850000x128, .f32⟩
  | 16 => ⟨S850000x128, .f32⟩
  | 17 => ⟨S_, .f32⟩
  | 18 => ⟨S50000x128, .f32⟩
  | 19 => ⟨S850000x1, .i32⟩
  | 20 => ⟨S50000x128, .f32⟩
  | 21 => ⟨S1x128, .f32⟩
  | 22 => ⟨S128, .f32⟩
  | 23 => ⟨S1x128, .f32⟩
  | 24 => ⟨S50000x128, .f32⟩
  | 25 => ⟨S50000x128, .f32⟩
  | 26 => ⟨S_, .f32⟩
  | 27 => ⟨S50000x128, .f32⟩
  | 28 => ⟨S50000x128, .f32⟩
  | 29 => ⟨S_, .f32⟩
  | 30 => ⟨S500x128, .f32⟩
  | 31 => ⟨S50000x1, .i32⟩
  | 32 => ⟨S500x128, .f32⟩
  | 33 => ⟨S_, .f32⟩
  | 34 => ⟨S50000, .f32⟩
  | 35 => ⟨S_, .f32⟩
  | 36 => ⟨S500, .f32⟩
  | 37 => ⟨S50000x1, .i32⟩
  | 38 => ⟨S500, .f32⟩
  | 39 => ⟨S_, .f32⟩
  | 40 => ⟨S500, .f32⟩
  | 41 => ⟨S500, .f32⟩
  | 42 => ⟨S500x1, .f32⟩
  | 43 => ⟨S500x128, .f32⟩
  | 44 => ⟨S500x128, .f32⟩
  | 45 => ⟨S500x128, .f32⟩
  | 46 => ⟨S1x128, .f32⟩
  | 47 => ⟨S500x128, .f32⟩
  | 48 => ⟨S500x128, .f32⟩
  | 49 => ⟨S_, .f32⟩
  | 50 => ⟨S500x128, .f32⟩
  | 51 => ⟨S500x128, .f32⟩
  | 52 => ⟨S500x10, .f32⟩
  | 53 => ⟨S1x10, .f32⟩
  | 54 => ⟨S500x10, .f32⟩
  | 55 => ⟨S500x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_7 : Ref sig .tc := ⟨.hbm, 56, rfl⟩
abbrev main_v36 : Ref sig .tc := ⟨.hbm, 57, rfl⟩
abbrev main_v37 : Ref sig .tc := ⟨.hbm, 58, rfl⟩
abbrev main_c_8 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_9 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_call1_cst : Ref sig .tc := ⟨.hbm, 76, rfl⟩
abbrev main_call1_v0 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_c_10 : Ref sig .tc := ⟨.hbm, 82, rfl⟩
abbrev main_v57 : Ref sig .tc := ⟨.hbm, 83, rfl⟩
abbrev main_v58 : Ref sig .tc := ⟨.hbm, 84, rfl⟩
abbrev main_c_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_12 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_call2_cst : Ref sig .tc := ⟨.hbm, 102, rfl⟩
abbrev main_call2_v0 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_c_13 : Ref sig .tc := ⟨.hbm, 108, rfl⟩
abbrev main_v78 : Ref sig .tc := ⟨.hbm, 109, rfl⟩
abbrev main_v79 : Ref sig .tc := ⟨.hbm, 110, rfl⟩
abbrev main_c_14 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_15 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_call3_cst : Ref sig .tc := ⟨.hbm, 128, rfl⟩
abbrev main_call3_v0 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_c_16 : Ref sig .tc := ⟨.hbm, 134, rfl⟩
abbrev main_v99 : Ref sig .tc := ⟨.hbm, 135, rfl⟩
abbrev main_v100 : Ref sig .tc := ⟨.hbm, 136, rfl⟩
abbrev main_c_17 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_cst_18 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_call4_cst : Ref sig .tc := ⟨.hbm, 154, rfl⟩
abbrev main_call4_v0 : Ref sig .tc := ⟨.hbm, 155, rfl⟩
abbrev main_v116 : Ref sig .tc := ⟨.hbm, 156, rfl⟩
abbrev main_cst_19 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_cst_20 : Ref sig .tc := ⟨.hbm, 161, rfl⟩
abbrev main_v120 : Ref sig .tc := ⟨.hbm, 162, rfl⟩
abbrev main_cst_21 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_cst_22 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_call5_cst : Ref sig .tc := ⟨.hbm, 177, rfl⟩
abbrev main_call5_v0 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  slices_S4x128x128_S1x128x128_0_0_0 : S4x128x128.Slices ![0, 0, 0] S1x128x128
  shapeCasts_S1x128x128_S128x128 : S1x128x128.ShapeCasts S128x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S_S500x128 : S_.BroadcastsInDim S500x128 (![] : Fin 0 → Fin S500x128.rank)
  bcast_S50000_S50000x1_0 : S50000.BroadcastsInDim S50000x1 (![0] : Fin 1 → Fin S50000x1.rank)
  bcast_S_S500 : S_.BroadcastsInDim S500 (![] : Fin 0 → Fin S500.rank)
  bcast_S500_S500x1_0 : S500.BroadcastsInDim S500x1 (![0] : Fin 1 → Fin S500x1.rank)
  bcast_S500x1_S500x128_0_1 : S500x1.BroadcastsInDim S500x128 (![0, 1] : Fin 2 → Fin S500x128.rank)
  bcast_S1x128_S500x128_0_1 : S1x128.BroadcastsInDim S500x128 (![0, 1] : Fin 2 → Fin S500x128.rank)
  bcast_S10_S1x10_1 : S10.BroadcastsInDim S1x10 (![1] : Fin 1 → Fin S1x10.rank)
  bcast_S1x10_S500x10_0_1 : S1x10.BroadcastsInDim S500x10 (![0, 1] : Fin 2 → Fin S500x10.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S500x128_S50000x1_S50000x128_1_0_0_1_wf : ScatterDims.WF S500x128 S50000x1 S50000x128 [1] [0] [0] 1
  scatter_S500_S50000x1_S50000_n_0_0_1_wf : ScatterDims.WF S500 S50000x1 S50000 [] [0] [0] 1
  dot_S500x128_S128x128_S500x128_1_0_0_1_n_n_wf : DotDims.WF S500x128 S128x128 S500x128 [1] [0] [0] [1] [] []
  dot_S500x128_S128x10_S500x10_1_0_0_1_n_n_wf : DotDims.WF S500x128 S128x10 S500x10 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S500x128_S50000x1_S50000x128_1_0_0_1 : ScatterDims S500x128 S50000x1 S50000x128 where
  updateWindowDims := [1]
  insertedWindowDims := [0]
  scatterDimsToOperandDims := [0]
  indexVectorDim := 1
  wf := scatter_S500x128_S50000x1_S50000x128_1_0_0_1_wf
def scatter_S500_S50000x1_S50000_n_0_0_1 : ScatterDims S500 S50000x1 S50000 where
  updateWindowDims := []
  insertedWindowDims := [0]
  scatterDimsToOperandDims := [0]
  indexVectorDim := 1
  wf := scatter_S500_S50000x1_S50000_n_0_0_1_wf
def dot_S500x128_S128x128_S500x128_1_0_0_1_n_n : DotDims S500x128 S128x128 S500x128 where
  lhsContracting := [1]
  rhsContracting := [0]
  lhsNonContracting := [0]
  rhsNonContracting := [1]
  lhsBatch := []
  rhsBatch := []
  wf := dot_S500x128_S128x128_S500x128_1_0_0_1_n_n_wf
def dot_S500x128_S128x10_S500x10_1_0_0_1_n_n : DotDims S500x128 S128x10 S500x10 where
  lhsContracting := [1]
  rhsContracting := [0]
  lhsNonContracting := [0]
  rhsNonContracting := [1]
  lhsBatch := []
  rhsBatch := []
  wf := dot_S500x128_S128x10_S500x10_1_0_0_1_n_n_wf

class Facts : Prop extends Facts₀ where

variable [Facts]
-- ==== Proof.RunResult.lean ====
/-
  The idealized kernel's whole run with its result named.

  The program is nine kernel regions among stretches of host operations.  Its run is a fold of the TensorCore's buffer
  contents through those segments, from the launch memory to the last boundary's contents `W20`: a host stretch
  rewrites the buffers its operations write, a region replaces its arrays by what its write-backs leave.  Every
  weakly fair execution ends with every unscoped buffer at `W20`; read at the result buffer this names the result,
  read at an argument it gives back the launch contents (no segment writes an argument).
-/
import proofs.«122397_j86268713107994_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and every argument array as launched. -/
theorem run_result : θ_run defs (onTc (τ := τ) (main (F := F))) ⟨m, fun _ => 0, ρ⟩ (fun r => ∀ c : Dev nD,
      r.2.mem ((c.tc : Thread nD τ).loc main_v117) = W20 m ρ c (Proc.devRef .tc main_v117)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c =>
      ⟨h c _ (mem_uc main_v117 (by decide)),
       (h c _ (mem_uc main_arg0 (by decide))).trans (W20_main_arg0 m ρ c),
       (h c _ (mem_uc main_arg1 (by decide))).trans (W20_main_arg1 m ρ c),
       (h c _ (mem_uc main_arg2 (by decide))).trans (W20_main_arg2 m ρ c),
       (h c _ (mem_uc main_arg3 (by decide))).trans (W20_main_arg3 m ρ c),
       (h c _ (mem_uc main_arg4 (by decide))).trans (W20_main_arg4 m ρ c),
       (h c _ (mem_uc main_arg5 (by decide))).trans (W20_main_arg5 m ρ c),
       (h c _ (mem_uc main_arg6 (by decide))).trans (W20_main_arg6 m ρ c),
       (h c _ (mem_uc main_arg7 (by decide))).trans (W20_main_arg7 m ρ c),
       (h c _ (mem_uc main_arg8 (by decide))).trans (W20_main_arg8 m ρ c)⟩)

end Cert.KernelIdeal.Whole

end
-- ==== Proof.Keep.lean ====
/-
  Which buffers the run leaves alone.

  From region 0 on, each segment of the run writes only a few buffers: a host stretch the results of its own operations,
  a region its output array.  `Lw` lists every reference that some segment from region 0 to the last host stretch
  writes, together with the arrays the regions 0–7 read.  A reference outside that list — the edge rows and columns,
  the edge weights, the argument arrays other than the node features — holds at every later boundary what it held when
  region 0 was entered (`Kept`).  Likewise `L0` lists what the three host stretches before region 0 write, and a
  reference outside it still holds its launch contents when region 0 is entered (`kept0`).
-/
import proofs.«122397_j86268713107994_1_alg».proof.Proof.Gen.KernelIdeal.Frame
import Idealize.ShloMosaic.Lib.StableHlo.Run

set_option maxRecDepth 16384

noncomputable section

namespace Cert.KernelIdeal.Sim

open Cert.KernelIdeal Cert.KernelIdeal.Gen
open Idealize.ShloMosaic Idealize.ShloMosaic.TcCoe Idealize.ShloMosaic.StableHlo
open Idealize.SL.Sem

variable {F : FTy → Type} [FloatOps F]

/-- What the host stretches before region 0 write. -/
abbrev L0 : List (Ref sig .tc) := [
    main_v0, main_v1, main_v2, main_v3, main_v4, main_v5, main_v6, main_cst, main_v7, main_cst_0,
    main_v8, main_v9, main_v10, main_cst_1, main_v11, main_v12, main_cst_2, main_v13, main_v14, main_v15,
    main_cst_3, main_call0_v0, main_call0_v1, main_v16, main_c, main_v17, main_v18, main_c_4, main_v19, main_v20,
    main_v21, main_v22, main_v23, main_c_5, main_v24, main_v25, main_c_6, main_v26, main_v27, main_v28,
    main_v29, main_v30, main_v31, main_v32, main_v33, main_v34 ]

/-- What the run writes from region 0 to the last host stretch, and the arrays of regions 0–7. -/
abbrev Lw : List (Ref sig .tc) := [
    main_arg0, main_v34, main_v35, main_c_7, main_v36, main_v37, main_c_8, main_v38, main_v39, main_v40,
    main_v41, main_v42, main_v43, main_v44, main_cst_9, main_v45, main_v46, main_v47, main_v48, main_v49,
    main_v50, main_v51, main_v52, main_v53, main_c_10, main_v54, main_v55, main_c_11, main_v56, main_v57,
    main_v58, main_v59, main_v60, main_v61, main_v62, main_cst_12, main_v63, main_v64, main_v65, main_v66,
    main_v67, main_v68, main_v69, main_v70, main_v71, main_c_13, main_v72, main_v73, main_c_14, main_v74,
    main_v75, main_v76, main_v77, main_v78, main_v79, main_v80, main_cst_15, main_v81, main_v82, main_v83,
    main_v84, main_v85, main_v86, main_v87, main_v88, main_v89, main_c_16, main_v90, main_v91, main_c_17,
    main_v92, main_v93, main_v94, main_v95, main_v96, main_v97, main_v98, main_cst_18, main_v99, main_v100,
    main_v101, main_v102, main_v103, main_v104, main_cst_19, main_v105, main_v106, main_v107, main_cst_20, main_v108,
    main_cst_21, main_v109, main_v110, main_v111, main_cst_22, main_v112, main_v113, main_v114, main_v115, main_v116 ]

theorem hostOps0_writes : (hostOps0 : List (HloOp τ sig (Elt F))).Forall fun op => op.writes ⊆ (L0.map (Proc.devRef (τ := τ) .tc)).toFinset := by
  simp only [hostOps0, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps0_1_writes : (hostOps0_1 : List (HloOp τ sig (Elt F))).Forall fun op => op.writes ⊆ (L0.map (Proc.devRef (τ := τ) .tc)).toFinset := by
  simp only [hostOps0_1, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps0_2_writes : (hostOps0_2 : List (HloOp τ sig (Elt F))).Forall fun op => op.writes ⊆ (L0.map (Proc.devRef (τ := τ) .tc)).toFinset := by
  simp only [hostOps0_2, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps1_writes : (hostOps1 : List (HloOp τ sig (Elt F))).Forall fun op => op.writes ⊆ (Lw.map (Proc.devRef (τ := τ) .tc)).toFinset := by
  simp only [hostOps1, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps2_writes : (hostOps2 : List (HloOp τ sig (Elt F))).Forall fun op => op.writes ⊆ (Lw.map (Proc.devRef (τ := τ) .tc)).toFinset := by
  simp only [hostOps2, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps3_writes : (hostOps3 : List (HloOp τ sig (Elt F))).Forall fun op => op.writes ⊆ (Lw.map (Proc.devRef (τ := τ) .tc)).toFinset := by
  simp only [hostOps3, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps4_writes : (hostOps4 : List (HloOp τ sig (Elt F))).Forall fun op => op.writes ⊆ (Lw.map (Proc.devRef (τ := τ) .tc)).toFinset := by
  simp only [hostOps4, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps5_writes : (hostOps5 : List (HloOp τ sig (Elt F))).Forall fun op => op.writes ⊆ (Lw.map (Proc.devRef (τ := τ) .tc)).toFinset := by
  simp only [hostOps5, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps6_writes : (hostOps6 : List (HloOp τ sig (Elt F))).Forall fun op => op.writes ⊆ (Lw.map (Proc.devRef (τ := τ) .tc)).toFinset := by
  simp only [hostOps6, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps7_writes : (hostOps7 : List (HloOp τ sig (Elt F))).Forall fun op => op.writes ⊆ (Lw.map (Proc.devRef (τ := τ) .tc)).toFinset := by
  simp only [hostOps7, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps8_writes : (hostOps8 : List (HloOp τ sig (Elt F))).Forall fun op => op.writes ⊆ (Lw.map (Proc.devRef (τ := τ) .tc)).toFinset := by
  simp only [hostOps8, List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

variable (m : (ℓ : Loc nD τ sig) → Buf (Elt F) ℓ) (ρ : Dev nD → PrngReg) (c : Dev nD)

/-- A reference none of the first three stretches writes still holds its launch contents at region 0's entry. -/
theorem kept0 (r : Ref sig .tc) (h : r ∉ L0) : W3 m ρ c (Proc.devRef .tc r) = m ((c : Thread nD τ).loc r) :=
  calc W3 m ρ c (Proc.devRef .tc r)
    _ = W2 m ρ c (Proc.devRef .tc r) := StableHlo.after_of_writes_sub hostOps0_2 _ hostOps0_2_writes h
    _ = W1 m ρ c (Proc.devRef .tc r) := StableHlo.after_of_writes_sub hostOps0_1 _ hostOps0_1_writes h
    _ = W0 m ρ c (Proc.devRef .tc r) := StableHlo.after_of_writes_sub hostOps0 _ hostOps0_writes h
    _ = m ((c : Thread nD τ).loc r) := rfl

theorem reg0_arrays : ∀ w : Fin cfg0.W, Pipeline.arrRef spec0 w ∈ Lw := by decide
theorem reg1_arrays : ∀ w : Fin cfg1.W, Pipeline.arrRef spec1 w ∈ Lw := by decide
theorem reg2_arrays : ∀ w : Fin cfg2.W, Pipeline.arrRef spec2 w ∈ Lw := by decide
theorem reg3_arrays : ∀ w : Fin cfg3.W, Pipeline.arrRef spec3 w ∈ Lw := by decide
theorem reg4_arrays : ∀ w : Fin cfg4.W, Pipeline.arrRef spec4 w ∈ Lw := by decide
theorem reg5_arrays : ∀ w : Fin cfg5.W, Pipeline.arrRef spec5 w ∈ Lw := by decide
theorem reg6_arrays : ∀ w : Fin cfg6.W, Pipeline.arrRef spec6 w ∈ Lw := by decide
theorem reg7_arrays : ∀ w : Fin cfg7.W, Pipeline.arrRef spec7 w ∈ Lw := by decide

/-- A reference outside `Lw` holds, at every boundary from region 0's exit to region 8's entry, what it held at region
    0's entry. -/
structure Kept (r : Ref sig .tc) : Prop where
  e4 : W4 m ρ c (Proc.devRef .tc r) = W3 m ρ c (Proc.devRef .tc r)
  e5 : W5 m ρ c (Proc.devRef .tc r) = W3 m ρ c (Proc.devRef .tc r)
  e6 : W6 m ρ c (Proc.devRef .tc r) = W3 m ρ c (Proc.devRef .tc r)
  e7 : W7 m ρ c (Proc.devRef .tc r) = W3 m ρ c (Proc.devRef .tc r)
  e8 : W8 m ρ c (Proc.devRef .tc r) = W3 m ρ c (Proc.devRef .tc r)
  e9 : W9 m ρ c (Proc.devRef .tc r) = W3 m ρ c (Proc.devRef .tc r)
  e10 : W10 m ρ c (Proc.devRef .tc r) = W3 m ρ c (Proc.devRef .tc r)
  e11 : W11 m ρ c (Proc.devRef .tc r) = W3 m ρ c (Proc.devRef .tc r)
  e12 : W12 m ρ c (Proc.devRef .tc r) = W3 m ρ c (Proc.devRef .tc r)
  e13 : W13 m ρ c (Proc.devRef .tc r) = W3 m ρ c (Proc.devRef .tc r)
  e14 : W14 m ρ c (Proc.devRef .tc r) = W3 m ρ c (Proc.devRef .tc r)
  e15 : W15 m ρ c (Proc.devRef .tc r) = W3 m ρ c (Proc.devRef .tc r)
  e16 : W16 m ρ c (Proc.devRef .tc r) = W3 m ρ c (Proc.devRef .tc r)
  e17 : W17 m ρ c (Proc.devRef .tc r) = W3 m ρ c (Proc.devRef .tc r)
  e18 : W18 m ρ c (Proc.devRef .tc r) = W3 m ρ c (Proc.devRef .tc r)
  e19 : W19 m ρ c (Proc.devRef .tc r) = W3 m ρ c (Proc.devRef .tc r)

theorem kept (r : Ref sig .tc) (h : r ∉ Lw) : Kept m ρ c r := by
  have e4 : W4 m ρ c (Proc.devRef .tc r) = W3 m ρ c (Proc.devRef .tc r) :=
    (W4_of_ne m ρ c r fun w e => h (e ▸ reg0_arrays w))
  have e5 : W5 m ρ c (Proc.devRef .tc r) = W3 m ρ c (Proc.devRef .tc r) :=
    (StableHlo.after_of_writes_sub hostOps1 _ hostOps1_writes h).trans e4
  have e6 : W6 m ρ c (Proc.devRef .tc r) = W3 m ρ c (Proc.devRef .tc r) :=
    (W6_of_ne m ρ c r fun w e => h (e ▸ reg1_arrays w)).trans e5
  have e7 : W7 m ρ c (Proc.devRef .tc r) = W3 m ρ c (Proc.devRef .tc r) :=
    (StableHlo.after_of_writes_sub hostOps2 _ hostOps2_writes h).trans e6
  have e8 : W8 m ρ c (Proc.devRef .tc r) = W3 m ρ c (Proc.devRef .tc r) :=
    (W8_of_ne m ρ c r fun w e => h (e ▸ reg2_arrays w)).trans e7
  have e9 : W9 m ρ c (Proc.devRef .tc r) = W3 m ρ c (Proc.devRef .tc r) :=
    (StableHlo.after_of_writes_sub hostOps3 _ hostOps3_writes h).trans e8
  have e10 : W10 m ρ c (Proc.devRef .tc r) = W3 m ρ c (Proc.devRef .tc r) :=
    (W10_of_ne m ρ c r fun w e => h (e ▸ reg3_arrays w)).trans e9
  have e11 : W11 m ρ c (Proc.devRef .tc r) = W3 m ρ c (Proc.devRef .tc r) :=
    (StableHlo.after_of_writes_sub hostOps4 _ hostOps4_writes h).trans e10
  have e12 : W12 m ρ c (Proc.devRef .tc r) = W3 m ρ c (Proc.devRef .tc r) :=
    (W12_of_ne m ρ c r fun w e => h (e ▸ reg4_arrays w)).trans e11
  have e13 : W13 m ρ c (Proc.devRef .tc r) = W3 m ρ c (Proc.devRef .tc r) :=
    (StableHlo.after_of_writes_sub hostOps5 _ hostOps5_writes h).trans e12
  have e14 : W14 m ρ c (Proc.devRef .tc r) = W3 m ρ c (Proc.devRef .tc r) :=
    (W14_of_ne m ρ c r fun w e => h (e ▸ reg5_arrays w)).trans e13
  have e15 : W15 m ρ c (Proc.devRef .tc r) = W3 m ρ c (Proc.devRef .tc r) :=
    (StableHlo.after_of_writes_sub hostOps6 _ hostOps6_writes h).trans e14
  have e16 : W16 m ρ c (Proc.devRef .tc r) = W3 m ρ c (Proc.devRef .tc r) :=
    (W16_of_ne m ρ c r fun w e => h (e ▸ reg6_arrays w)).trans e15
  have e17 : W17 m ρ c (Proc.devRef .tc r) = W3 m ρ c (Proc.devRef .tc r) :=
    (StableHlo.after_of_writes_sub hostOps7 _ hostOps7_writes h).trans e16
  have e18 : W18 m ρ c (Proc.devRef .tc r) = W3 m ρ c (Proc.devRef .tc r) :=
    (W18_of_ne m ρ c r fun w e => h (e ▸ reg7_arrays w)).trans e17
  have e19 : W19 m ρ c (Proc.devRef .tc r) = W3 m ρ c (Proc.devRef .tc r) :=
    (StableHlo.after_of_writes_sub hostOps8 _ hostOps8_writes h).trans e18
  exact ⟨e4, e5, e6, e7, e8, e9, e10, e11, e12, e13, e14, e15, e16, e17, e18, e19⟩

end Cert.KernelIdeal.Sim

end
-- ==== Proof.SimHost.lean ====
/-
  What each stretch of host operations of the idealized kernel leaves, as the reference's stage of the same name.

  Around its nine regions the kernel's program runs the same host operations as the reference, in the same order: the
  edge lists with their self loops, the symmetric normalisation  d^{-1/2}[row] · d^{-1/2}[col]  (d the in-degree, counted
  by a scatter-add of ones), per layer the gather of the projected rows along the edges, their scaling and the
  scatter-add into the target rows, the slice of the layer's weight and bias, and at the end the mean over each graph.
  So a stretch's result, read off the fold of its operations, IS the reference's stage function of the same operations
  once the stretch's inputs are the reference's stages: each lemma below reads one buffer after one stretch, rewrites the
  inputs it is given, and closes by unfolding the stage functions.  No operation is opened: a gather, a scatter-add and
  the rest stay the same opaque functions on both sides.
-/
import proofs.«122397_j86268713107994_1_alg».proof.Proof.Gen.KernelIdeal.Frame
import proofs.«122397_j86268713107994_1_alg».proof.Proof.RefReadP
import Idealize.ShloMosaic.Lib.StableHlo.Run

set_option maxRecDepth 16384

noncomputable section

namespace Cert.KernelIdeal.Sim

open Cert.KernelIdeal Cert.KernelIdeal.Gen
open Idealize.ShloMosaic Idealize.ShloMosaic.TcCoe Idealize.ShloMosaic.StableHlo
open Idealize.SL.Sem

variable (m : (ℓ : Loc nD τ sig) → Buf (Elt Ideal) ℓ) (ρ : Dev nD → PrngReg) (c : Dev nD)

/-! ## Before region 0: the edge lists, the normalisation, the first layer's weight -/

set_option maxHeartbeats 8000000 in
/-- The source nodes of the edges followed by the self loops. -/
theorem h0_row : W3 m ρ c (Proc.devRef .tc main_v3) = Cert.ReferenceIdeal.ReadP.val_main_v3 (F := Ideal) (m ((c : Thread nD τ).loc main_arg1)) := by
  show StableHlo.after hostOps0_2 (StableHlo.after hostOps0_1 (StableHlo.after hostOps0 (W0 m ρ c))) _ = _
  dsimp only [hostOps0_2, hostOps0_1, hostOps0]
  after_results_simp
  rfl

set_option maxHeartbeats 8000000 in
/-- The target nodes of the edges followed by the self loops. -/
theorem h0_col : W3 m ρ c (Proc.devRef .tc main_v6) = Cert.ReferenceIdeal.ReadP.val_main_v6 (F := Ideal) (m ((c : Thread nD τ).loc main_arg1)) := by
  show StableHlo.after hostOps0_2 (StableHlo.after hostOps0_1 (StableHlo.after hostOps0 (W0 m ρ c))) _ = _
  dsimp only [hostOps0_2, hostOps0_1, hostOps0]
  after_results_simp
  rfl

/-- Whether a node's in-degree is positive. -/
theorem h0_pos : W1 m ρ c (Proc.devRef .tc main_v12) = Cert.ReferenceIdeal.ReadP.val_main_v12 (F := Ideal) (m ((c : Thread nD τ).loc main_arg1)) := by
  show StableHlo.after hostOps0 (W0 m ρ c) _ = _
  dsimp only [hostOps0]
  after_results_simp
  rfl

/-- The inverse square root of the in-degree (clamped below). -/
theorem h0_rsq : W1 m ρ c (Proc.devRef .tc main_v15) = Cert.ReferenceIdeal.ReadP.val_main_v15 (F := Ideal) (m ((c : Thread nD τ).loc main_arg1)) := by
  show StableHlo.after hostOps0 (W0 m ρ c) _ = _
  dsimp only [hostOps0]
  after_results_simp
  rfl

/-- The zero the selection falls back to. -/
theorem h0_zero : W1 m ρ c (Proc.devRef .tc main_cst_3) = Cert.ReferenceIdeal.ReadP.val_main_cst_3 (F := Ideal) := by
  show StableHlo.after hostOps0 (W0 m ρ c) _ = _
  dsimp only [hostOps0]
  after_results_simp
  rfl

/-- The selection between three given arrays, whatever they are: where the first is set the second, elsewhere the third
    (a scalar spread over the nodes). -/
theorem h01_sel (Vw : Valuation τ sig (Elt Ideal)) (p : (⟨S50000, .i1⟩ : BufTy).Contents (Elt Ideal)) (r : (⟨S50000, .f32⟩ : BufTy).Contents (Elt Ideal))
    (z : (⟨S_, .f32⟩ : BufTy).Contents (Elt Ideal))
    (hp : Vw (Proc.devRef .tc main_v12) = p) (hr : Vw (Proc.devRef .tc main_v15) = r) (hz : Vw (Proc.devRef .tc main_cst_3) = z) :
    StableHlo.after hostOps0_1 Vw (Proc.devRef .tc main_v16) = select p r (broadcastInDim S50000 ![] bcast_S_S50000 (id z)) := by
  dsimp only [hostOps0_1]
  after_results_simp
  rw [hp, hr, hz]
  rfl

/-- That selection of the reference's three stages is the reference's d^{-1/2}. -/
theorem dinv_ref (a1 : (⟨S2x800000, .i32⟩ : BufTy).Contents (Elt Ideal)) :
    select (Cert.ReferenceIdeal.ReadP.val_main_v12 (F := Ideal) a1) (Cert.ReferenceIdeal.ReadP.val_main_v15 (F := Ideal) a1)
      (broadcastInDim S50000 ![] bcast_S_S50000 (id (Cert.ReferenceIdeal.ReadP.val_main_cst_3 (F := Ideal))))
    = Cert.ReferenceIdeal.ReadP.val_main_v16 (F := Ideal) a1 := rfl

/-- d^{-1/2}: the inverse square root where the in-degree is positive, zero elsewhere — from any contents that hold the
    three inputs of the selection. -/
theorem h01_dinv (Vw : Valuation τ sig (Elt Ideal)) (a1 : (⟨S2x800000, .i32⟩ : BufTy).Contents (Elt Ideal))
    (hp : Vw (Proc.devRef .tc main_v12) = Cert.ReferenceIdeal.ReadP.val_main_v12 (F := Ideal) a1)
    (hr : Vw (Proc.devRef .tc main_v15) = Cert.ReferenceIdeal.ReadP.val_main_v15 (F := Ideal) a1)
    (hz : Vw (Proc.devRef .tc main_cst_3) = Cert.ReferenceIdeal.ReadP.val_main_cst_3 (F := Ideal)) :
    StableHlo.after hostOps0_1 Vw (Proc.devRef .tc main_v16) = Cert.ReferenceIdeal.ReadP.val_main_v16 (F := Ideal) a1 :=
  (h01_sel Vw _ _ _ hp hr hz).trans (dinv_ref a1)

/-- The edge lists are not touched by the selection. -/
theorem h0_row2 : W2 m ρ c (Proc.devRef .tc main_v3) = Cert.ReferenceIdeal.ReadP.val_main_v3 (F := Ideal) (m ((c : Thread nD τ).loc main_arg1)) := by
  show StableHlo.after hostOps0_1 (StableHlo.after hostOps0 (W0 m ρ c)) _ = _
  dsimp only [hostOps0_1, hostOps0]
  after_results_simp
  rfl
theorem h0_col2 : W2 m ρ c (Proc.devRef .tc main_v6) = Cert.ReferenceIdeal.ReadP.val_main_v6 (F := Ideal) (m ((c : Thread nD τ).loc main_arg1)) := by
  show StableHlo.after hostOps0_1 (StableHlo.after hostOps0 (W0 m ρ c)) _ = _
  dsimp only [hostOps0_1, hostOps0]
  after_results_simp
  rfl

set_option maxHeartbeats 4000000 in
/-- The edge weights d^{-1/2}[row] · d^{-1/2}[col] as a column — from any contents that hold d^{-1/2} and the edge lists. -/
theorem h02_nrm (Vw : Valuation τ sig (Elt Ideal)) (a1 : (⟨S2x800000, .i32⟩ : BufTy).Contents (Elt Ideal))
    (hd : Vw (Proc.devRef .tc main_v16) = Cert.ReferenceIdeal.ReadP.val_main_v16 (F := Ideal) a1)
    (hrow : Vw (Proc.devRef .tc main_v3) = Cert.ReferenceIdeal.ReadP.val_main_v3 (F := Ideal) a1)
    (hcol : Vw (Proc.devRef .tc main_v6) = Cert.ReferenceIdeal.ReadP.val_main_v6 (F := Ideal) a1) :
    StableHlo.after hostOps0_2 Vw (Proc.devRef .tc main_v32) = Cert.ReferenceIdeal.ReadP.val_main_v32 (F := Ideal) a1 := by
  dsimp only [hostOps0_2]
  after_results_simp
  rw [hd, hrow, hcol]
  rfl

/-- The edge weights d^{-1/2}[row] · d^{-1/2}[col], as a column. -/
theorem h0_nrm : W3 m ρ c (Proc.devRef .tc main_v32) = Cert.ReferenceIdeal.ReadP.val_main_v32 (F := Ideal) (m ((c : Thread nD τ).loc main_arg1)) :=
  h02_nrm (W2 m ρ c) _ (h01_dinv (W1 m ρ c) _ (h0_pos m ρ c) (h0_rsq m ρ c) (h0_zero m ρ c)) (h0_row2 m ρ c) (h0_col2 m ρ c)

set_option maxHeartbeats 8000000 in
/-- The first layer's weight matrix. -/
theorem h0_w : W3 m ρ c (Proc.devRef .tc main_v34) = Cert.ReferenceIdeal.ReadP.val_main_v34 (F := Ideal) (m ((c : Thread nD τ).loc main_arg3)) := by
  show StableHlo.after hostOps0_2 (StableHlo.after hostOps0_1 (StableHlo.after hostOps0 (W0 m ρ c))) _ = _
  dsimp only [hostOps0_2, hostOps0_1, hostOps0]
  after_results_simp
  rfl

/-! ## Per layer: aggregate the projected rows along the edges; slice the bias -/

set_option maxHeartbeats 4000000 in
/-- The projected rows gathered along the edges, scaled by the edge weights and summed into their target rows. -/
theorem h1_xs (a0 : (⟨S50000x128, .f32⟩ : BufTy).Contents (Elt Ideal)) (a1 : (⟨S2x800000, .i32⟩ : BufTy).Contents (Elt Ideal)) (a3 : (⟨S4x128x128, .f32⟩ : BufTy).Contents (Elt Ideal))
    (hh : W4 m ρ c (Proc.devRef .tc main_v35) = Cert.ReferenceIdeal.ReadP.val_main_v35 (F := Ideal) a0 a3)
    (hrow : W4 m ρ c (Proc.devRef .tc main_v3) = Cert.ReferenceIdeal.ReadP.val_main_v3 (F := Ideal) a1)
    (hcol : W4 m ρ c (Proc.devRef .tc main_v6) = Cert.ReferenceIdeal.ReadP.val_main_v6 (F := Ideal) a1)
    (hn : W4 m ρ c (Proc.devRef .tc main_v32) = Cert.ReferenceIdeal.ReadP.val_main_v32 (F := Ideal) a1) :
    W5 m ρ c (Proc.devRef .tc main_v47) = Cert.ReferenceIdeal.ReadP.val_main_v47 (F := Ideal) a0 a1 a3 := by
  show StableHlo.after hostOps1 (W4 m ρ c) _ = _
  dsimp only [hostOps1]
  after_results_simp
  rw [hh, hrow, hcol, hn]
  rfl

/-- The layer's bias row. -/
theorem h1_b (a4 : (⟨S4x128, .f32⟩ : BufTy).Contents (Elt Ideal)) (h4 : W4 m ρ c (Proc.devRef .tc main_arg4) = a4) :
    W5 m ρ c (Proc.devRef .tc main_v49) = Cert.ReferenceIdeal.ReadP.val_main_v49 (F := Ideal) a4 := by
  show StableHlo.after hostOps1 (W4 m ρ c) _ = _
  dsimp only [hostOps1]
  after_results_simp
  rw [h4]
  rfl

set_option maxHeartbeats 4000000 in
/-- The projected rows gathered along the edges, scaled by the edge weights and summed into their target rows. -/
theorem h3_xs (a0 : (⟨S50000x128, .f32⟩ : BufTy).Contents (Elt Ideal)) (a1 : (⟨S2x800000, .i32⟩ : BufTy).Contents (Elt Ideal)) (a3 : (⟨S4x128x128, .f32⟩ : BufTy).Contents (Elt Ideal)) (a4 : (⟨S4x128, .f32⟩ : BufTy).Contents (Elt Ideal))
    (hh : W8 m ρ c (Proc.devRef .tc main_v53) = Cert.ReferenceIdeal.ReadP.val_main_v56 (F := Ideal) a0 a1 a3 a4)
    (hrow : W8 m ρ c (Proc.devRef .tc main_v3) = Cert.ReferenceIdeal.ReadP.val_main_v3 (F := Ideal) a1)
    (hcol : W8 m ρ c (Proc.devRef .tc main_v6) = Cert.ReferenceIdeal.ReadP.val_main_v6 (F := Ideal) a1)
    (hn : W8 m ρ c (Proc.devRef .tc main_v32) = Cert.ReferenceIdeal.ReadP.val_main_v32 (F := Ideal) a1) :
    W9 m ρ c (Proc.devRef .tc main_v65) = Cert.ReferenceIdeal.ReadP.val_main_v68 (F := Ideal) a0 a1 a3 a4 := by
  show StableHlo.after hostOps3 (W8 m ρ c) _ = _
  dsimp only [hostOps3]
  after_results_simp
  rw [hh, hrow, hcol, hn]
  rfl

/-- The layer's bias row. -/
theorem h3_b (a4 : (⟨S4x128, .f32⟩ : BufTy).Contents (Elt Ideal)) (h4 : W8 m ρ c (Proc.devRef .tc main_arg4) = a4) :
    W9 m ρ c (Proc.devRef .tc main_v67) = Cert.ReferenceIdeal.ReadP.val_main_v70 (F := Ideal) a4 := by
  show StableHlo.after hostOps3 (W8 m ρ c) _ = _
  dsimp only [hostOps3]
  after_results_simp
  rw [h4]
  rfl

set_option maxHeartbeats 4000000 in
/-- The projected rows gathered along the edges, scaled by the edge weights and summed into their target rows. -/
theorem h5_xs (a0 : (⟨S50000x128, .f32⟩ : BufTy).Contents (Elt Ideal)) (a1 : (⟨S2x800000, .i32⟩ : BufTy).Contents (Elt Ideal)) (a3 : (⟨S4x128x128, .f32⟩ : BufTy).Contents (Elt Ideal)) (a4 : (⟨S4x128, .f32⟩ : BufTy).Contents (Elt Ideal))
    (hh : W12 m ρ c (Proc.devRef .tc main_v71) = Cert.ReferenceIdeal.ReadP.val_main_v77 (F := Ideal) a0 a1 a3 a4)
    (hrow : W12 m ρ c (Proc.devRef .tc main_v3) = Cert.ReferenceIdeal.ReadP.val_main_v3 (F := Ideal) a1)
    (hcol : W12 m ρ c (Proc.devRef .tc main_v6) = Cert.ReferenceIdeal.ReadP.val_main_v6 (F := Ideal) a1)
    (hn : W12 m ρ c (Proc.devRef .tc main_v32) = Cert.ReferenceIdeal.ReadP.val_main_v32 (F := Ideal) a1) :
    W13 m ρ c (Proc.devRef .tc main_v83) = Cert.ReferenceIdeal.ReadP.val_main_v89 (F := Ideal) a0 a1 a3 a4 := by
  show StableHlo.after hostOps5 (W12 m ρ c) _ = _
  dsimp only [hostOps5]
  after_results_simp
  rw [hh, hrow, hcol, hn]
  rfl

/-- The layer's bias row. -/
theorem h5_b (a4 : (⟨S4x128, .f32⟩ : BufTy).Contents (Elt Ideal)) (h4 : W12 m ρ c (Proc.devRef .tc main_arg4) = a4) :
    W13 m ρ c (Proc.devRef .tc main_v85) = Cert.ReferenceIdeal.ReadP.val_main_v91 (F := Ideal) a4 := by
  show StableHlo.after hostOps5 (W12 m ρ c) _ = _
  dsimp only [hostOps5]
  after_results_simp
  rw [h4]
  rfl

set_option maxHeartbeats 4000000 in
/-- The projected rows gathered along the edges, scaled by the edge weights and summed into their target rows. -/
theorem h7_xs (a0 : (⟨S50000x128, .f32⟩ : BufTy).Contents (Elt Ideal)) (a1 : (⟨S2x800000, .i32⟩ : BufTy).Contents (Elt Ideal)) (a3 : (⟨S4x128x128, .f32⟩ : BufTy).Contents (Elt Ideal)) (a4 : (⟨S4x128, .f32⟩ : BufTy).Contents (Elt Ideal))
    (hh : W16 m ρ c (Proc.devRef .tc main_v89) = Cert.ReferenceIdeal.ReadP.val_main_v98 (F := Ideal) a0 a1 a3 a4)
    (hrow : W16 m ρ c (Proc.devRef .tc main_v3) = Cert.ReferenceIdeal.ReadP.val_main_v3 (F := Ideal) a1)
    (hcol : W16 m ρ c (Proc.devRef .tc main_v6) = Cert.ReferenceIdeal.ReadP.val_main_v6 (F := Ideal) a1)
    (hn : W16 m ρ c (Proc.devRef .tc main_v32) = Cert.ReferenceIdeal.ReadP.val_main_v32 (F := Ideal) a1) :
    W17 m ρ c (Proc.devRef .tc main_v101) = Cert.ReferenceIdeal.ReadP.val_main_v110 (F := Ideal) a0 a1 a3 a4 := by
  show StableHlo.after hostOps7 (W16 m ρ c) _ = _
  dsimp only [hostOps7]
  after_results_simp
  rw [hh, hrow, hcol, hn]
  rfl

/-- The layer's bias row. -/
theorem h7_b (a4 : (⟨S4x128, .f32⟩ : BufTy).Contents (Elt Ideal)) (h4 : W16 m ρ c (Proc.devRef .tc main_arg4) = a4) :
    W17 m ρ c (Proc.devRef .tc main_v103) = Cert.ReferenceIdeal.ReadP.val_main_v112 (F := Ideal) a4 := by
  show StableHlo.after hostOps7 (W16 m ρ c) _ = _
  dsimp only [hostOps7]
  after_results_simp
  rw [h4]
  rfl

/-! ## Between a layer's bias + relu and the next projection: slice the next weight -/

/-- The next layer's weight matrix. -/
theorem h2_w (a3 : (⟨S4x128x128, .f32⟩ : BufTy).Contents (Elt Ideal)) (h3 : W6 m ρ c (Proc.devRef .tc main_arg3) = a3) :
    W7 m ρ c (Proc.devRef .tc main_v52) = Cert.ReferenceIdeal.ReadP.val_main_v55 (F := Ideal) a3 := by
  show StableHlo.after hostOps2 (W6 m ρ c) _ = _
  dsimp only [hostOps2]
  after_results_simp
  rw [h3]
  rfl

/-- The layer's output is not touched by the slice. -/
theorem h2_x : W7 m ρ c (Proc.devRef .tc main_v50) = W6 m ρ c (Proc.devRef .tc main_v50) := by
  show StableHlo.after hostOps2 (W6 m ρ c) _ = _
  dsimp only [hostOps2]
  after_results_simp

/-- The next layer's weight matrix. -/
theorem h4_w (a3 : (⟨S4x128x128, .f32⟩ : BufTy).Contents (Elt Ideal)) (h3 : W10 m ρ c (Proc.devRef .tc main_arg3) = a3) :
    W11 m ρ c (Proc.devRef .tc main_v70) = Cert.ReferenceIdeal.ReadP.val_main_v76 (F := Ideal) a3 := by
  show StableHlo.after hostOps4 (W10 m ρ c) _ = _
  dsimp only [hostOps4]
  after_results_simp
  rw [h3]
  rfl

/-- The layer's output is not touched by the slice. -/
theorem h4_x : W11 m ρ c (Proc.devRef .tc main_v68) = W10 m ρ c (Proc.devRef .tc main_v68) := by
  show StableHlo.after hostOps4 (W10 m ρ c) _ = _
  dsimp only [hostOps4]
  after_results_simp

/-- The next layer's weight matrix. -/
theorem h6_w (a3 : (⟨S4x128x128, .f32⟩ : BufTy).Contents (Elt Ideal)) (h3 : W14 m ρ c (Proc.devRef .tc main_arg3) = a3) :
    W15 m ρ c (Proc.devRef .tc main_v88) = Cert.ReferenceIdeal.ReadP.val_main_v97 (F := Ideal) a3 := by
  show StableHlo.after hostOps6 (W14 m ρ c) _ = _
  dsimp only [hostOps6]
  after_results_simp
  rw [h3]
  rfl

/-- The layer's output is not touched by the slice. -/
theorem h6_x : W15 m ρ c (Proc.devRef .tc main_v86) = W14 m ρ c (Proc.devRef .tc main_v86) := by
  show StableHlo.after hostOps6 (W14 m ρ c) _ = _
  dsimp only [hostOps6]
  after_results_simp

/-! ## After the last layer: the mean over each graph -/

set_option maxHeartbeats 4000000 in
/-- The node rows summed per graph, divided by the graph's node count (at least one). -/
theorem h8_g (a0 : (⟨S50000x128, .f32⟩ : BufTy).Contents (Elt Ideal)) (a1 : (⟨S2x800000, .i32⟩ : BufTy).Contents (Elt Ideal)) (a2 : (⟨S50000, .i32⟩ : BufTy).Contents (Elt Ideal)) (a3 : (⟨S4x128x128, .f32⟩ : BufTy).Contents (Elt Ideal)) (a4 : (⟨S4x128, .f32⟩ : BufTy).Contents (Elt Ideal))
    (hx : W18 m ρ c (Proc.devRef .tc main_v104) = Cert.ReferenceIdeal.ReadP.val_main_v116 (F := Ideal) a0 a1 a3 a4)
    (h2 : W18 m ρ c (Proc.devRef .tc main_arg2) = a2) :
    W19 m ρ c (Proc.devRef .tc main_v116) = Cert.ReferenceIdeal.ReadP.val_main_v128 (F := Ideal) a0 a1 a2 a3 a4 := by
  show StableHlo.after hostOps8 (W18 m ρ c) _ = _
  dsimp only [hostOps8]
  after_results_simp
  rw [hx, h2]
  rfl

end Cert.KernelIdeal.Sim

end
-- ==== Proof.Spec.lean ====
/-
  The three array functions the kernel regions and the reference's host operations both compute over the extended reals.

  * `prodArr x w`: the matrix product of an M×K array and a K×N array, entry (p, q) the sum over k of x(p,k)·w(k,q).
  * `addRow y b`: a length-N vector added to every row of an M×N array.
  * `relu0 y`: the entrywise maximum with the real number the zero word denotes.

  A graph-convolution layer is `relu0 (addRow (aggregate (prodArr x w)) b)`; the final perceptron is
  `addRow (prodArr (relu0 (addRow (prodArr g w₁) b₁)) w₂) b₂`.
-/
import Idealize.ShloMosaic.PureOps.Ideal.Laws
import Idealize.ShloMosaic.Lib.ValueIdx

noncomputable section

namespace Cert.Spec

open Idealize.ShloMosaic Idealize.ShloMosaic.ValueIdx

variable {M K N : Nat}

/-- The matrix product, entry by entry. -/
def prodArr (x : (⟨2, ![M, K]⟩ : Shape).Idx → EReal) (w : (⟨2, ![K, N]⟩ : Shape).Idx → EReal) :
    (⟨2, ![M, N]⟩ : Shape).Idx → EReal :=
  fun i => ∑ k : Fin K, x (ix2 (⟨(i 0).val, idx2_lt0 i⟩ : Fin M) k) * w (ix2 k (⟨(i 1).val, idx2_lt1 i⟩ : Fin N))

theorem prodArr_apply (x : (⟨2, ![M, K]⟩ : Shape).Idx → EReal) (w : (⟨2, ![K, N]⟩ : Shape).Idx → EReal) (p : Fin M) (q : Fin N) :
    prodArr x w (ix2 p q) = ∑ k : Fin K, x (ix2 p k) * w (ix2 k q) := rfl

/-- A row vector added to every row. -/
def addRow (y : (⟨2, ![M, N]⟩ : Shape).Idx → EReal) (b : (⟨1, ![N]⟩ : Shape).Idx → EReal) :
    (⟨2, ![M, N]⟩ : Shape).Idx → EReal :=
  fun i => y i + b (ix1 (⟨(i 1).val, idx2_lt1 i⟩ : Fin N))

theorem addRow_apply (y : (⟨2, ![M, N]⟩ : Shape).Idx → EReal) (b : (⟨1, ![N]⟩ : Shape).Idx → EReal) (p : Fin M) (q : Fin N) :
    addRow y b (ix2 p q) = y (ix2 p q) + b (ix1 q) := rfl

/-- The entrywise maximum with zero (the value of the all-zero f32 word). -/
def relu0 {s : Shape} (y : s.Idx → EReal) : s.Idx → EReal :=
  fun i => max (y i) (Ideal.ofBits .f32 0x00000000#32)

theorem relu0_apply {s : Shape} (y : s.Idx → EReal) (i : s.Idx) : relu0 y i = max (y i) (Ideal.ofBits .f32 0x00000000#32) := rfl

/-- Two arrays of a rank-2 shape are equal when they agree at every pair of coordinates. -/
theorem ext2 {α : Type} {f g : (⟨2, ![M, N]⟩ : Shape).Idx → α} (h : ∀ (p : Fin M) (q : Fin N), f (ix2 p q) = g (ix2 p q)) : f = g :=
  funext fun i => by rw [eq_ix2 i]; exact h _ _

end Cert.Spec

end
-- ==== Proof.LibMatmul.lean ====
/-
  A matrix product into a zero accumulator, and the host's product without one, read at an entry.

  For the plain dimension numbers of an M×K by K×N product (contract the left operand's second axis with the right
  operand's first, no batch axis), the product accumulated into the zero splat is, at entry (p, q) and over the
  extended reals, the sum over k of the left operand at (p, k) times the right operand at (k, q): the accumulator
  contributes 0 + · and the one-axis contraction index is its coordinate.  The host's product is the same sum.
-/
import Idealize.ShloMosaic.PureOps.Ideal.Laws
import Idealize.ShloMosaic.Lib.ValueIdx

noncomputable section

namespace Cert.LibMatmul

open Idealize.ShloMosaic Idealize.ShloMosaic.ValueIdx

variable (M K N : Nat)

/-- The left operand's index at output entry `i` and contraction index `q`: row of `i`, column `q`. -/
theorem plain_lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
theorem plain_lhs1 (i : (⟨2, ![M, N]⟩ : Shape).Idx) (q : (DotDims.plain M K N).contr.Idx) :
    ((DotDims.plain M K N).lhsIdx i q 1).val = (q ⟨0, Nat.zero_lt_one⟩).val :=
  (DotDims.plain M K N).lhsIdx_val_of_single rfl i q
/-- The right operand's index: row `q`, column of `i`. -/
theorem plain_rhs0 (i : (⟨2, ![M, N]⟩ : Shape).Idx) (q : (DotDims.plain M K N).contr.Idx) :
    ((DotDims.plain M K N).rhsIdx i q 0).val = (q ⟨0, Nat.zero_lt_one⟩).val :=
  (DotDims.plain M K N).rhsIdx_val_of_single rfl i q
theorem plain_rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

variable {M K N}

/-- The contraction sum of a plain product at entry (p, q), re-indexed by the contracted coordinate. -/
theorem sum_contr_plain (x : (⟨2, ![M, K]⟩ : Shape).Idx → EReal) (w : (⟨2, ![K, N]⟩ : Shape).Idx → EReal) (p : Fin M) (q : Fin N) :
    (∑ k : (DotDims.plain M K N).contr.Idx, x ((DotDims.plain M K N).lhsIdx (ix2 p q) k) * w ((DotDims.plain M K N).rhsIdx (ix2 p q) k))
      = ∑ k : Fin K, x (ix2 p k) * w (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 M K N _ _
      | ⟨1, _⟩ => exact (plain_lhs1 M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 M K N _ _).trans hk
      | ⟨1, _⟩ => exact plain_rhs1 M K N _ _)
  rw [el, er]

/-- The host's product (no accumulator) at entry (p, q): the same sum. -/
theorem dotGeneral_plain_apply {φ₁ φ₂ : FTy} (prec : Option ContractPrecision) (sched : HostSchedule)
    (x : FVec Ideal ⟨2, ![M, K]⟩ φ₁) (w : FVec Ideal ⟨2, ![K, N]⟩ φ₂) (p : Fin M) (q : Fin N) :
    FloatOps.dotGeneral (DotDims.plain M K N) prec sched x w (ix2 p q) = ∑ k : Fin K, x (ix2 p k) * w (ix2 k q) := by
  rw [Ideal.dotGeneral_apply]
  exact sum_contr_plain x w p q

/-- The product into the zero accumulator at entry (p, q): the sum over k of x(p, k) · w(k, q). -/
theorem matmul_plain_zero_apply {φ₁ φ₂ : FTy} (prec : Option ContractPrecision) (x : FVec Ideal ⟨2, ![M, K]⟩ φ₁) (w : FVec Ideal ⟨2, ![K, N]⟩ φ₂)
    (p : Fin M) (q : Fin N) :
    FloatOps.matmul (DotDims.plain M K N) prec x w (constant ⟨2, ![M, N]⟩ .f32 0x00000000#32) (ix2 p q)
      = ∑ k : Fin K, x (ix2 p k) * w (ix2 k q) := by
  rw [Ideal.matmul_constant_zero_apply]
  exact sum_contr_plain x w p q

end Cert.LibMatmul

end
-- ==== Proof.RegionProj.lean ====
/-
  The value of each projection region: the output array after the region as one function of the
  arrays the region reads.

  A projection region walks the 50000 rows of its input in five blocks of 10000 rows; at each block it holds the whole
  128×128 weight, multiplies the block by it into a zero accumulator and stores the product as the same rows of the
  output.  Over the extended reals the narrowing of both operands is the identity, so row r of the output is row r of
  the input times the weight: the output array is the matrix product of the two input arrays.

  Per region: the body's stored value at one entry of a block; where each window's block sits in its array (the
  index maps, decided over the five grid points); what a grid point writes back is the block of the target function
  at that point; the five blocks cover the array; hence the array after the region is the target function.
-/
import proofs.«122397_j86268713107994_1_alg».proof.Proof.Gen.KernelIdeal.Frame
import proofs.«122397_j86268713107994_1_alg».proof.Proof.Spec
import proofs.«122397_j86268713107994_1_alg».proof.Proof.LibMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.Spec

variable (V : (c : Dev nD) → (b : Ref sig .tc) → Buf (Elt Ideal) ((c : Thread nD τ).loc b)) (c : Dev nD)

/-- The zero offsets of a rank-2 rectangle, as the constant function. -/
theorem zeroOff2 : (![0, 0] : Fin 2 → Nat) = fun _ => 0 := funext fun a => by fin_cases a <;> rfl

/-! ## Region 0 -/

/-- The stored value at entry (p, q) of a block: row p of the input block times column q of the weight. -/
theorem pay0_apply (x0 : Vec Ideal S10000x128 .f32) (x1 : Vec Ideal S128x128 .f32) (p : Fin 10000) (q : Fin 128) :
    k0_pay1 (F := Ideal) x0 x1 (ix2 p q) = ∑ k : Fin 128, x0 (ix2 p k) * x1 (ix2 k q) := by
  unfold k0_pay1
  rw [shapeCast_self]
  exact LibMatmul.matmul_plain_zero_apply (M := 10000) (K := 128) (N := 128) none
    (truncf .bf16 x0 bitsLt_bf16_f32) (truncf .bf16 x1 bitsLt_bf16_f32) p q

/-- Where the windows' blocks sit at grid point t: the input's and the output's at row block t, the weight whole. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, k) of the input's block at point t is entry (10000 t + p, k) of the input array. -/
theorem blk0_0 (t : Fin cfg0.N) (p : Fin 10000) (k : Fin 128) (r : Fin 50000) (hr : r.val = t.val * 10000 + p.val) :
    (iblk0 V c 0 t : Vec Ideal S10000x128 .f32) (ix2 p k) = (V c main_arg0 : S50000x128.Idx → EReal) (ix2 r k) := by
  obtain ⟨e0, e1, -⟩ := idx0 t
  unfold iblk0
  rw [View.read_apply]
  show (V c main_arg0 : S50000x128.Idx → EReal) (((cfg0.win 0).blk t).view.emb (ix2 p k)) = _
  congr 1
  funext a
  apply Fin.ext
  match a with
  | ⟨0, _⟩ => show win0_0.index t (0 : Fin 2) * 10000 + 1 * p.val = r.val; omega
  | ⟨1, _⟩ => show win0_0.index t (1 : Fin 2) * 128 + 1 * k.val = k.val; omega

/-- The weight's block at every point is the weight array. -/
theorem blk0_1 (t : Fin cfg0.N) (k : Fin 128) (q : Fin 128) :
    (iblk0 V c 1 t : Vec Ideal S128x128 .f32) (ix2 k q) = (V c main_v34 : S128x128.Idx → EReal) (ix2 k q) := by
  obtain ⟨-, -, e2, e3, -⟩ := idx0 t
  unfold iblk0
  rw [View.read_apply]
  show (V c main_v34 : S128x128.Idx → EReal) (((cfg0.win 1).blk t).view.emb (ix2 k q)) = _
  congr 1
  funext a
  apply Fin.ext
  match a with
  | ⟨0, _⟩ => show win0_1.index t (0 : Fin 2) * 128 + 1 * k.val = k.val; omega
  | ⟨1, _⟩ => show win0_1.index t (1 : Fin 2) * 128 + 1 * q.val = q.val; omega

/-- What grid point t writes back is block t of the product of the input array and the weight array. -/
theorem flushed0 (t : Fin cfg0.N) :
    (dat0 (F := Ideal) V c).flushed 2 t
      = ((cfg0.win 2).blk t).view.read (Elt Ideal) (prodArr (M := 50000) (K := 128) (N := 128) (V c main_arg0) (V c main_v34)) := by
  show (cfg0.win 2).cut (grid0.coords t) ((dat0 V c).after 2 t) = _
  rw [after0_2]
  unfold out0_2
  rw [View.canon_unit_zero zeroOff2]
  simp only [View.ld_unit_zero (S := S10000x128) zeroOff2, View.ld_unit_zero (S := S128x128) zeroOff2]
  have hN : cfg0.N = 5 := N_0
  have ht : t.val < 5 := by have := t.isLt; omega
  obtain ⟨-, -, -, -, e4, e5⟩ := idx0 t
  funext j
  obtain ⟨p, q, rfl⟩ : ∃ (p : Fin 10000) (q : Fin 128), j = ix2 p q := ⟨j 0, j 1, eq_ix2 j⟩
  obtain ⟨r, hr⟩ : ∃ r : Fin 50000, r.val = t.val * 10000 + p.val := ⟨⟨t.val * 10000 + p.val, by omega⟩, rfl⟩
  show k0_pay1 (F := Ideal) (iblk0 V c 0 t) (iblk0 V c 1 t) (ix2 p q)
    = prodArr (M := 50000) (K := 128) (N := 128) (V c main_arg0) (V c main_v34) (((cfg0.win 2).blk t).view.emb (ix2 p q))
  have hemb : ((cfg0.win 2).blk t).view.emb (ix2 p q) = (ix2 r q : S50000x128.Idx) := by
    funext a
    apply Fin.ext
    match a with
    | ⟨0, _⟩ => show win0_2.index t (0 : Fin 2) * 10000 + 1 * p.val = r.val; omega
    | ⟨1, _⟩ => show win0_2.index t (1 : Fin 2) * 128 + 1 * q.val = q.val; omega
  rw [hemb, prodArr_apply]
  refine (pay0_apply (iblk0 V c 0 t) (iblk0 V c 1 t) p q).trans ?_
  refine Finset.sum_congr rfl fun k _ => ?_
  rw [blk0_0 V c t p k r hr, blk0_1 V c t k q]

/-- An index of the output array is in point t's block iff each coordinate is in the block's range on its axis. -/
theorem mem_blk0 (t : Fin cfg0.N) (i : S50000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v35).slice (win0_2.rect t)).set ↔ _
  rw [View.set_slice_whole, Rect.mem_set_unit]
  exact Iff.rfl

/-- Row r of the output array is in the block of point r / 10000: the five blocks cover the array. -/
theorem cover0 (i : S50000x128.Idx) :
    ∃ t : Fin cfg0.N, (cfg0.win 2).flush t = true ∧ i ∈ ((cfg0.win 2).blk t).view.set := by
  have hN : cfg0.N = 5 := N_0
  have h0 : (i 0).val < 50000 := idx2_lt0 i
  have h1 : (i 1).val < 128 := idx2_lt1 i
  obtain ⟨t, ht⟩ : ∃ t : Fin cfg0.N, t.val = (i 0).val / 10000 := ⟨⟨(i 0).val / 10000, by omega⟩, rfl⟩
  obtain ⟨-, -, -, -, e4, e5⟩ := idx0 t
  refine ⟨t, flush0_2 t, ?_⟩
  rw [mem_blk0]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 128 ≤ (i 1).val ∧ (i 1).val < win0_2.index t (1 : Fin 2) * 128 + 128
    omega

/-- The output array after region 0: the product of the input array and the weight array. -/
theorem arr0 : (dat0 (F := Ideal) V c).arrAt 2 cfg0.N = prodArr (V c main_arg0) (V c main_v34) :=
  (dat0 (F := Ideal) V c).arrAt_eq_of_cover 2 (prodArr (M := 50000) (K := 128) (N := 128) (V c main_arg0) (V c main_v34))
    (fun t _ => flushed0 V c t) (cover0)

/-! ## Region 2 -/

/-- The stored value at entry (p, q) of a block: row p of the input block times column q of the weight. -/
theorem pay2_apply (x0 : Vec Ideal S10000x128 .f32) (x1 : Vec Ideal S128x128 .f32) (p : Fin 10000) (q : Fin 128) :
    k2_pay1 (F := Ideal) x0 x1 (ix2 p q) = ∑ k : Fin 128, x0 (ix2 p k) * x1 (ix2 k q) := by
  unfold k2_pay1
  rw [shapeCast_self, shapeCast_self]
  exact LibMatmul.matmul_plain_zero_apply (M := 10000) (K := 128) (N := 128) none
    (truncf .bf16 x0 bitsLt_bf16_f32) (truncf .bf16 x1 bitsLt_bf16_f32) p q

/-- Where the windows' blocks sit at grid point t: the input's and the output's at row block t, the weight whole. -/
theorem idx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Entry (p, k) of the input's block at point t is entry (10000 t + p, k) of the input array. -/
theorem blk2_0 (t : Fin cfg2.N) (p : Fin 10000) (k : Fin 128) (r : Fin 50000) (hr : r.val = t.val * 10000 + p.val) :
    (iblk2 V c 0 t : Vec Ideal S10000x128 .f32) (ix2 p k) = (V c main_v50 : S50000x128.Idx → EReal) (ix2 r k) := by
  obtain ⟨e0, e1, -⟩ := idx2 t
  unfold iblk2
  rw [View.read_apply]
  show (V c main_v50 : S50000x128.Idx → EReal) (((cfg2.win 0).blk t).view.emb (ix2 p k)) = _
  congr 1
  funext a
  apply Fin.ext
  match a with
  | ⟨0, _⟩ => show win2_0.index t (0 : Fin 2) * 10000 + 1 * p.val = r.val; omega
  | ⟨1, _⟩ => show win2_0.index t (1 : Fin 2) * 128 + 1 * k.val = k.val; omega

/-- The weight's block at every point is the weight array. -/
theorem blk2_1 (t : Fin cfg2.N) (k : Fin 128) (q : Fin 128) :
    (iblk2 V c 1 t : Vec Ideal S128x128 .f32) (ix2 k q) = (V c main_v52 : S128x128.Idx → EReal) (ix2 k q) := by
  obtain ⟨-, -, e2, e3, -⟩ := idx2 t
  unfold iblk2
  rw [View.read_apply]
  show (V c main_v52 : S128x128.Idx → EReal) (((cfg2.win 1).blk t).view.emb (ix2 k q)) = _
  congr 1
  funext a
  apply Fin.ext
  match a with
  | ⟨0, _⟩ => show win2_1.index t (0 : Fin 2) * 128 + 1 * k.val = k.val; omega
  | ⟨1, _⟩ => show win2_1.index t (1 : Fin 2) * 128 + 1 * q.val = q.val; omega

/-- What grid point t writes back is block t of the product of the input array and the weight array. -/
theorem flushed2 (t : Fin cfg2.N) :
    (dat2 (F := Ideal) V c).flushed 2 t
      = ((cfg2.win 2).blk t).view.read (Elt Ideal) (prodArr (M := 50000) (K := 128) (N := 128) (V c main_v50) (V c main_v52)) := by
  show (cfg2.win 2).cut (grid2.coords t) ((dat2 V c).after 2 t) = _
  rw [after2_2]
  unfold out2_2
  rw [View.canon_unit_zero zeroOff2]
  simp only [View.ld_unit_zero (S := S10000x128) zeroOff2, View.ld_unit_zero (S := S128x128) zeroOff2]
  have hN : cfg2.N = 5 := N_2
  have ht : t.val < 5 := by have := t.isLt; omega
  obtain ⟨-, -, -, -, e4, e5⟩ := idx2 t
  funext j
  obtain ⟨p, q, rfl⟩ : ∃ (p : Fin 10000) (q : Fin 128), j = ix2 p q := ⟨j 0, j 1, eq_ix2 j⟩
  obtain ⟨r, hr⟩ : ∃ r : Fin 50000, r.val = t.val * 10000 + p.val := ⟨⟨t.val * 10000 + p.val, by omega⟩, rfl⟩
  show k2_pay1 (F := Ideal) (iblk2 V c 0 t) (iblk2 V c 1 t) (ix2 p q)
    = prodArr (M := 50000) (K := 128) (N := 128) (V c main_v50) (V c main_v52) (((cfg2.win 2).blk t).view.emb (ix2 p q))
  have hemb : ((cfg2.win 2).blk t).view.emb (ix2 p q) = (ix2 r q : S50000x128.Idx) := by
    funext a
    apply Fin.ext
    match a with
    | ⟨0, _⟩ => show win2_2.index t (0 : Fin 2) * 10000 + 1 * p.val = r.val; omega
    | ⟨1, _⟩ => show win2_2.index t (1 : Fin 2) * 128 + 1 * q.val = q.val; omega
  rw [hemb, prodArr_apply]
  refine (pay2_apply (iblk2 V c 0 t) (iblk2 V c 1 t) p q).trans ?_
  refine Finset.sum_congr rfl fun k _ => ?_
  rw [blk2_0 V c t p k r hr, blk2_1 V c t k q]

/-- An index of the output array is in point t's block iff each coordinate is in the block's range on its axis. -/
theorem mem_blk2 (t : Fin cfg2.N) (i : S50000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v53).slice (win2_2.rect t)).set ↔ _
  rw [View.set_slice_whole, Rect.mem_set_unit]
  exact Iff.rfl

/-- Row r of the output array is in the block of point r / 10000: the five blocks cover the array. -/
theorem cover2 (i : S50000x128.Idx) :
    ∃ t : Fin cfg2.N, (cfg2.win 2).flush t = true ∧ i ∈ ((cfg2.win 2).blk t).view.set := by
  have hN : cfg2.N = 5 := N_2
  have h0 : (i 0).val < 50000 := idx2_lt0 i
  have h1 : (i 1).val < 128 := idx2_lt1 i
  obtain ⟨t, ht⟩ : ∃ t : Fin cfg2.N, t.val = (i 0).val / 10000 := ⟨⟨(i 0).val / 10000, by omega⟩, rfl⟩
  obtain ⟨-, -, -, -, e4, e5⟩ := idx2 t
  refine ⟨t, flush2_2 t, ?_⟩
  rw [mem_blk2]
  intro a
  match a with
  | ⟨0, _⟩ =>
    show win2_2.index t (0 : Fin 2) * 10000 ≤ (i 0).val ∧ (i 0).val < win2_2.index t (0 : Fin 2) * 10000 + 10000
    omega
  | ⟨1, _⟩ =>
    show win2_2.index t (1 : Fin 2) * 128 ≤ (i 1).val ∧ (i 1).val < win2_2.index t (1 : Fin 2) * 128 + 128
    omega

/-- The output array after region 2: the product of the input array and the weight array. -/
theorem arr2 : (dat2 (F := Ideal) V c).arrAt 2 cfg2.N = prodArr (V c main_v50) (V c main_v52) :=
  (dat2 (F := Ideal) V c).arrAt_eq_of_cover 2 (prodArr (M := 50000) (K := 128) (N := 128) (V c main_v50) (V c main_v52))
    (fun t _ => flushed2 V c t) (cover2)

/-! ## Region 4 -/

/-- The stored value at entry (p, q) of a block: row p of the input block times column q of the weight. -/
theorem pay4_apply (x0 : Vec Ideal S10000x128 .f32) (x1 : Vec Ideal S128x128 .f32) (p : Fin 10000) (q : Fin 128) :
    k4_pay1 (F := Ideal) x0 x1 (ix2 p q) = ∑ k : Fin 128, x0 (ix2 p k) * x1 (ix2 k q) := by
  unfold k4_pay1
  rw [shapeCast_self, shapeCast_self]
  exact LibMatmul.matmul_plain_zero_apply (M := 10000) (K := 128) (N := 128) none
    (truncf .bf16 x0 bitsLt_bf16_f32) (truncf .bf16 x1 bitsLt_bf16_f32) p q

/-- Where the windows' blocks sit at grid point t: the input's and the output's at row block t, the weight whole. -/
theorem idx4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Entry (p, k) of the input's block at point t is entry (10000 t + p, k) of the input array. -/
theorem blk4_0 (t : Fin cfg4.N) (p : Fin 10000) (k : Fin 128) (r : Fin 50000) (hr : r.val = t.val * 10000 + p.val) :
    (iblk4 V c 0 t : Vec Ideal S10000x128 .f32) (ix2 p k) = (V c main_v68 : S50000x128.Idx → EReal) (ix2 r k) := by
  obtain ⟨e0, e1, -⟩ := idx4 t
  unfold iblk4
  rw [View.read_apply]
  show (V c main_v68 : S50000x128.Idx → EReal) (((cfg4.win 0).blk t).view.emb (ix2 p k)) = _
  congr 1
  funext a
  apply Fin.ext
  match a with
  | ⟨0, _⟩ => show win4_0.index t (0 : Fin 2) * 10000 + 1 * p.val = r.val; omega
  | ⟨1, _⟩ => show win4_0.index t (1 : Fin 2) * 128 + 1 * k.val = k.val; omega

/-- The weight's block at every point is the weight array. -/
theorem blk4_1 (t : Fin cfg4.N) (k : Fin 128) (q : Fin 128) :
    (iblk4 V c 1 t : Vec Ideal S128x128 .f32) (ix2 k q) = (V c main_v70 : S128x128.Idx → EReal) (ix2 k q) := by
  obtain ⟨-, -, e2, e3, -⟩ := idx4 t
  unfold iblk4
  rw [View.read_apply]
  show (V c main_v70 : S128x128.Idx → EReal) (((cfg4.win 1).blk t).view.emb (ix2 k q)) = _
  congr 1
  funext a
  apply Fin.ext
  match a with
  | ⟨0, _⟩ => show win4_1.index t (0 : Fin 2) * 128 + 1 * k.val = k.val; omega
  | ⟨1, _⟩ => show win4_1.index t (1 : Fin 2) * 128 + 1 * q.val = q.val; omega

/-- What grid point t writes back is block t of the product of the input array and the weight array. -/
theorem flushed4 (t : Fin cfg4.N) :
    (dat4 (F := Ideal) V c).flushed 2 t
      = ((cfg4.win 2).blk t).view.read (Elt Ideal) (prodArr (M := 50000) (K := 128) (N := 128) (V c main_v68) (V c main_v70)) := by
  show (cfg4.win 2).cut (grid4.coords t) ((dat4 V c).after 2 t) = _
  rw [after4_2]
  unfold out4_2
  rw [View.canon_unit_zero zeroOff2]
  simp only [View.ld_unit_zero (S := S10000x128) zeroOff2, View.ld_unit_zero (S := S128x128) zeroOff2]
  have hN : cfg4.N = 5 := N_4
  have ht : t.val < 5 := by have := t.isLt; omega
  obtain ⟨-, -, -, -, e4, e5⟩ := idx4 t
  funext j
  obtain ⟨p, q, rfl⟩ : ∃ (p : Fin 10000) (q : Fin 128), j = ix2 p q := ⟨j 0, j 1, eq_ix2 j⟩
  obtain ⟨r, hr⟩ : ∃ r : Fin 50000, r.val = t.val * 10000 + p.val := ⟨⟨t.val * 10000 + p.val, by omega⟩, rfl⟩
  show k4_pay1 (F := Ideal) (iblk4 V c 0 t) (iblk4 V c 1 t) (ix2 p q)
    = prodArr (M := 50000) (K := 128) (N := 128) (V c main_v68) (V c main_v70) (((cfg4.win 2).blk t).view.emb (ix2 p q))
  have hemb : ((cfg4.win 2).blk t).view.emb (ix2 p q) = (ix2 r q : S50000x128.Idx) := by
    funext a
    apply Fin.ext
    match a with
    | ⟨0, _⟩ => show win4_2.index t (0 : Fin 2) * 10000 + 1 * p.val = r.val; omega
    | ⟨1, _⟩ => show win4_2.index t (1 : Fin 2) * 128 + 1 * q.val = q.val; omega
  rw [hemb, prodArr_apply]
  refine (pay4_apply (iblk4 V c 0 t) (iblk4 V c 1 t) p q).trans ?_
  refine Finset.sum_congr rfl fun k _ => ?_
  rw [blk4_0 V c t p k r hr, blk4_1 V c t k q]

/-- An index of the output array is in point t's block iff each coordinate is in the block's range on its axis. -/
theorem mem_blk4 (t : Fin cfg4.N) (i : S50000x128.Idx) :
    i ∈ ((cfg4.win 2).blk t).view.set ↔ ∀ a : Fin 2, win4_2.index t a * S10000x128.size a ≤ (i a).val ∧ (i a).val < win4_2.index t a * S10000x128.size a + S10000x128.size a := by
  show i ∈ ((View.whole main_v71).slice (win4_2.rect t)).set ↔ _
  rw [View.set_slice_whole, Rect.mem_set_unit]
  exact Iff.rfl

/-- Row r of the output array is in the block of point r / 10000: the five blocks cover the array. -/
theorem cover4 (i : S50000x128.Idx) :
    ∃ t : Fin cfg4.N, (cfg4.win 2).flush t = true ∧ i ∈ ((cfg4.win 2).blk t).view.set := by
  have hN : cfg4.N = 5 := N_4
  have h0 : (i 0).val < 50000 := idx2_lt0 i
  have h1 : (i 1).val < 128 := idx2_lt1 i
  obtain ⟨t, ht⟩ : ∃ t : Fin cfg4.N, t.val = (i 0).val / 10000 := ⟨⟨(i 0).val / 10000, by omega⟩, rfl⟩
  obtain ⟨-, -, -, -, e4, e5⟩ := idx4 t
  refine ⟨t, flush4_2 t, ?_⟩
  rw [mem_blk4]
  intro a
  match a with
  | ⟨0, _⟩ =>
    show win4_2.index t (0 : Fin 2) * 10000 ≤ (i 0).val ∧ (i 0).val < win4_2.index t (0 : Fin 2) * 10000 + 10000
    omega
  | ⟨1, _⟩ =>
    show win4_2.index t (1 : Fin 2) * 128 ≤ (i 1).val ∧ (i 1).val < win4_2.index t (1 : Fin 2) * 128 + 128
    omega

/-- The output array after region 4: the product of the input array and the weight array. -/
theorem arr4 : (dat4 (F := Ideal) V c).arrAt 2 cfg4.N = prodArr (V c main_v68) (V c main_v70) :=
  (dat4 (F := Ideal) V c).arrAt_eq_of_cover 2 (prodArr (M := 50000) (K := 128) (N := 128) (V c main_v68) (V c main_v70))
    (fun t _ => flushed4 V c t) (cover4)

/-! ## Region 6 -/

/-- The stored value at entry (p, q) of a block: row p of the input block times column q of the weight. -/
theorem pay6_apply (x0 : Vec Ideal S10000x128 .f32) (x1 : Vec Ideal S128x128 .f32) (p : Fin 10000) (q : Fin 128) :
    k6_pay1 (F := Ideal) x0 x1 (ix2 p q) = ∑ k : Fin 128, x0 (ix2 p k) * x1 (ix2 k q) := by
  unfold k6_pay1
  rw [shapeCast_self, shapeCast_self]
  exact LibMatmul.matmul_plain_zero_apply (M := 10000) (K := 128) (N := 128) none
    (truncf .bf16 x0 bitsLt_bf16_f32) (truncf .bf16 x1 bitsLt_bf16_f32) p q

/-- Where the windows' blocks sit at grid point t: the input's and the output's at row block t, the weight whole. -/
theorem idx6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- Entry (p, k) of the input's block at point t is entry (10000 t + p, k) of the input array. -/
theorem blk6_0 (t : Fin cfg6.N) (p : Fin 10000) (k : Fin 128) (r : Fin 50000) (hr : r.val = t.val * 10000 + p.val) :
    (iblk6 V c 0 t : Vec Ideal S10000x128 .f32) (ix2 p k) = (V c main_v86 : S50000x128.Idx → EReal) (ix2 r k) := by
  obtain ⟨e0, e1, -⟩ := idx6 t
  unfold iblk6
  rw [View.read_apply]
  show (V c main_v86 : S50000x128.Idx → EReal) (((cfg6.win 0).blk t).view.emb (ix2 p k)) = _
  congr 1
  funext a
  apply Fin.ext
  match a with
  | ⟨0, _⟩ => show win6_0.index t (0 : Fin 2) * 10000 + 1 * p.val = r.val; omega
  | ⟨1, _⟩ => show win6_0.index t (1 : Fin 2) * 128 + 1 * k.val = k.val; omega

/-- The weight's block at every point is the weight array. -/
theorem blk6_1 (t : Fin cfg6.N) (k : Fin 128) (q : Fin 128) :
    (iblk6 V c 1 t : Vec Ideal S128x128 .f32) (ix2 k q) = (V c main_v88 : S128x128.Idx → EReal) (ix2 k q) := by
  obtain ⟨-, -, e2, e3, -⟩ := idx6 t
  unfold iblk6
  rw [View.read_apply]
  show (V c main_v88 : S128x128.Idx → EReal) (((cfg6.win 1).blk t).view.emb (ix2 k q)) = _
  congr 1
  funext a
  apply Fin.ext
  match a with
  | ⟨0, _⟩ => show win6_1.index t (0 : Fin 2) * 128 + 1 * k.val = k.val; omega
  | ⟨1, _⟩ => show win6_1.index t (1 : Fin 2) * 128 + 1 * q.val = q.val; omega

/-- What grid point t writes back is block t of the product of the input array and the weight array. -/
theorem flushed6 (t : Fin cfg6.N) :
    (dat6 (F := Ideal) V c).flushed 2 t
      = ((cfg6.win 2).blk t).view.read (Elt Ideal) (prodArr (M := 50000) (K := 128) (N := 128) (V c main_v86) (V c main_v88)) := by
  show (cfg6.win 2).cut (grid6.coords t) ((dat6 V c).after 2 t) = _
  rw [after6_2]
  unfold out6_2
  rw [View.canon_unit_zero zeroOff2]
  simp only [View.ld_unit_zero (S := S10000x128) zeroOff2, View.ld_unit_zero (S := S128x128) zeroOff2]
  have hN : cfg6.N = 5 := N_6
  have ht : t.val < 5 := by have := t.isLt; omega
  obtain ⟨-, -, -, -, e4, e5⟩ := idx6 t
  funext j
  obtain ⟨p, q, rfl⟩ : ∃ (p : Fin 10000) (q : Fin 128), j = ix2 p q := ⟨j 0, j 1, eq_ix2 j⟩
  obtain ⟨r, hr⟩ : ∃ r : Fin 50000, r.val = t.val * 10000 + p.val := ⟨⟨t.val * 10000 + p.val, by omega⟩, rfl⟩
  show k6_pay1 (F := Ideal) (iblk6 V c 0 t) (iblk6 V c 1 t) (ix2 p q)
    = prodArr (M := 50000) (K := 128) (N := 128) (V c main_v86) (V c main_v88) (((cfg6.win 2).blk t).view.emb (ix2 p q))
  have hemb : ((cfg6.win 2).blk t).view.emb (ix2 p q) = (ix2 r q : S50000x128.Idx) := by
    funext a
    apply Fin.ext
    match a with
    | ⟨0, _⟩ => show win6_2.index t (0 : Fin 2) * 10000 + 1 * p.val = r.val; omega
    | ⟨1, _⟩ => show win6_2.index t (1 : Fin 2) * 128 + 1 * q.val = q.val; omega
  rw [hemb, prodArr_apply]
  refine (pay6_apply (iblk6 V c 0 t) (iblk6 V c 1 t) p q).trans ?_
  refine Finset.sum_congr rfl fun k _ => ?_
  rw [blk6_0 V c t p k r hr, blk6_1 V c t k q]

/-- An index of the output array is in point t's block iff each coordinate is in the block's range on its axis. -/
theorem mem_blk6 (t : Fin cfg6.N) (i : S50000x128.Idx) :
    i ∈ ((cfg6.win 2).blk t).view.set ↔ ∀ a : Fin 2, win6_2.index t a * S10000x128.size a ≤ (i a).val ∧ (i a).val < win6_2.index t a * S10000x128.size a + S10000x128.size a := by
  show i ∈ ((View.whole main_v89).slice (win6_2.rect t)).set ↔ _
  rw [View.set_slice_whole, Rect.mem_set_unit]
  exact Iff.rfl

/-- Row r of the output array is in the block of point r / 10000: the five blocks cover the array. -/
theorem cover6 (i : S50000x128.Idx) :
    ∃ t : Fin cfg6.N, (cfg6.win 2).flush t = true ∧ i ∈ ((cfg6.win 2).blk t).view.set := by
  have hN : cfg6.N = 5 := N_6
  have h0 : (i 0).val < 50000 := idx2_lt0 i
  have h1 : (i 1).val < 128 := idx2_lt1 i
  obtain ⟨t, ht⟩ : ∃ t : Fin cfg6.N, t.val = (i 0).val / 10000 := ⟨⟨(i 0).val / 10000, by omega⟩, rfl⟩
  obtain ⟨-, -, -, -, e4, e5⟩ := idx6 t
  refine ⟨t, flush6_2 t, ?_⟩
  rw [mem_blk6]
  intro a
  match a with
  | ⟨0, _⟩ =>
    show win6_2.index t (0 : Fin 2) * 10000 ≤ (i 0).val ∧ (i 0).val < win6_2.index t (0 : Fin 2) * 10000 + 10000
    omega
  | ⟨1, _⟩ =>
    show win6_2.index t (1 : Fin 2) * 128 ≤ (i 1).val ∧ (i 1).val < win6_2.index t (1 : Fin 2) * 128 + 128
    omega

/-- The output array after region 6: the product of the input array and the weight array. -/
theorem arr6 : (dat6 (F := Ideal) V c).arrAt 2 cfg6.N = prodArr (V c main_v86) (V c main_v88) :=
  (dat6 (F := Ideal) V c).arrAt_eq_of_cover 2 (prodArr (M := 50000) (K := 128) (N := 128) (V c main_v86) (V c main_v88))
    (fun t _ => flushed6 V c t) (cover6)

end Cert.KernelIdeal.Regions

end
-- ==== Proof.RegionBias.lean ====
/-
  The value of each bias-and-rectifier region: the output array after the region as one function of the
  arrays the region reads.

  Such a region walks the 50000 rows of its input in five blocks of 10000 rows; at each block it holds the whole
  128-entry bias, adds it to every row of the block, takes the entrywise maximum with zero and stores the result as
  the same rows of the output.  So the output array is the rectified sum of the input array and the bias row.

  Per region: the body's stored value at one entry of a block; where each window's block sits in its array (the
  index maps, decided over the five grid points); what a grid point writes back is the block of the target function
  at that point; the five blocks cover the array; hence the array after the region is the target function.
-/
import proofs.«122397_j86268713107994_1_alg».proof.Proof.Gen.KernelIdeal.Frame
import proofs.«122397_j86268713107994_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.Spec

variable (V : (c : Dev nD) → (b : Ref sig .tc) → Buf (Elt Ideal) ((c : Thread nD τ).loc b)) (c : Dev nD)

/-- The zero offsets of a rank-2 rectangle, as the constant function. -/
theorem zeroOffRow2 : (![0, 0] : Fin 2 → Nat) = fun _ => 0 := funext fun a => by fin_cases a <;> rfl

/-- The zero offset of a rank-1 rectangle, as the constant function. -/
theorem zeroOff1 : (![0] : Fin 1 → Nat) = fun _ => 0 := funext fun a => by fin_cases a; rfl

/-- A 128-vector viewed as one row and broadcast over 10000 rows reads, at (p, q), its entry q. -/
theorem rowBroadcast_apply (x1 : Vec Ideal S128 .f32) (p : Fin 10000) (q : Fin 128) :
    broadcastTo S10000x128 (shapeCast S1x128 x1 shapeCasts_S128_S1x128) broadcasts_S1x128_S10000x128 (ix2 p q) = x1 (ix1 q) := by
  refine (broadcastTo_1b_ab_apply (a := 10000) (b := 128) (shapeCast S1x128 x1 shapeCasts_S128_S1x128)
    broadcasts_S1x128_S10000x128 p q).trans ?_
  refine (shapeCast_addUnit_apply (n := 1) ![128] x1 shapeCasts_S128_S1x128 (ix2 (0 : Fin 1) q)).trans ?_
  congr 1
  funext a
  match a with
  | ⟨0, _⟩ => rfl

/-! ## Region 1 -/

/-- The stored value at entry (p, q) of a block: the input block's entry plus entry q of the bias, or zero if that is larger. -/
theorem pay1_apply (x0 : Vec Ideal S10000x128 .f32) (x1 : Vec Ideal S128 .f32) (p : Fin 10000) (q : Fin 128) :
    k1_pay1 (F := Ideal) x0 x1 (ix2 p q) = max (x0 (ix2 p q) + x1 (ix1 q)) (Ideal.ofBits .f32 0x00000000#32) := by
  unfold k1_pay1
  rw [shapeCast_self, shapeCast_self]
  show max (x0 (ix2 p q) + broadcastTo S10000x128 (shapeCast S1x128 x1 shapeCasts_S128_S1x128) broadcasts_S1x128_S10000x128 (ix2 p q))
      (Ideal.ofBits .f32 0x00000000#32) = _
  exact congrArg (fun z => max (x0 (ix2 p q) + z) (Ideal.ofBits .f32 0x00000000#32)) (rowBroadcast_apply x1 p q)

/-- Where the windows' blocks sit at grid point t: the input's and the output's at row block t, the bias whole. -/
theorem idx1 : ∀ t : Fin cfg1.N,
    win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

/-- Entry (p, q) of the input's block at point t is entry (10000 t + p, q) of the input array. -/
theorem blk1_0 (t : Fin cfg1.N) (p : Fin 10000) (q : Fin 128) (r : Fin 50000) (hr : r.val = t.val * 10000 + p.val) :
    (iblk1 V c 0 t : Vec Ideal S10000x128 .f32) (ix2 p q) = (V c main_v47 : S50000x128.Idx → EReal) (ix2 r q) := by
  obtain ⟨e0, e1, -⟩ := idx1 t
  unfold iblk1
  rw [View.read_apply]
  show (V c main_v47 : S50000x128.Idx → EReal) (((cfg1.win 0).blk t).view.emb (ix2 p q)) = _
  congr 1
  funext a
  apply Fin.ext
  match a with
  | ⟨0, _⟩ => show win1_0.index t (0 : Fin 2) * 10000 + 1 * p.val = r.val; omega
  | ⟨1, _⟩ => show win1_0.index t (1 : Fin 2) * 128 + 1 * q.val = q.val; omega

/-- The bias's block at every point is the bias array. -/
theorem blk1_1 (t : Fin cfg1.N) (q : Fin 128) :
    (iblk1 V c 1 t : Vec Ideal S128 .f32) (ix1 q) = (V c main_v49 : S128.Idx → EReal) (ix1 q) := by
  obtain ⟨-, -, e2, -⟩ := idx1 t
  unfold iblk1
  rw [View.read_apply]
  show (V c main_v49 : S128.Idx → EReal) (((cfg1.win 1).blk t).view.emb (ix1 q)) = _
  congr 1
  funext a
  apply Fin.ext
  match a with
  | ⟨0, _⟩ => show win1_1.index t (0 : Fin 1) * 128 + 1 * q.val = q.val; omega

/-- What grid point t writes back is block t of the rectified sum of the input array and the bias row. -/
theorem flushed1 (t : Fin cfg1.N) :
    (dat1 (F := Ideal) V c).flushed 2 t
      = ((cfg1.win 2).blk t).view.read (Elt Ideal) (relu0 (addRow (M := 50000) (N := 128) (V c main_v47) (V c main_v49))) := by
  show (cfg1.win 2).cut (grid1.coords t) ((dat1 V c).after 2 t) = _
  rw [after1_2]
  unfold out1_2
  rw [View.canon_unit_zero zeroOffRow2]
  simp only [View.ld_unit_zero (S := S10000x128) zeroOffRow2, View.ld_unit_zero (S := S128) zeroOff1]
  have hN : cfg1.N = 5 := N_1
  have ht : t.val < 5 := by have := t.isLt; omega
  obtain ⟨-, -, -, e4, e5⟩ := idx1 t
  funext j
  obtain ⟨p, q, rfl⟩ : ∃ (p : Fin 10000) (q : Fin 128), j = ix2 p q := ⟨j 0, j 1, eq_ix2 j⟩
  obtain ⟨r, hr⟩ : ∃ r : Fin 50000, r.val = t.val * 10000 + p.val := ⟨⟨t.val * 10000 + p.val, by omega⟩, rfl⟩
  show k1_pay1 (F := Ideal) (iblk1 V c 0 t) (iblk1 V c 1 t) (ix2 p q)
    = relu0 (addRow (M := 50000) (N := 128) (V c main_v47) (V c main_v49)) (((cfg1.win 2).blk t).view.emb (ix2 p q))
  have hemb : ((cfg1.win 2).blk t).view.emb (ix2 p q) = (ix2 r q : S50000x128.Idx) := by
    funext a
    apply Fin.ext
    match a with
    | ⟨0, _⟩ => show win1_2.index t (0 : Fin 2) * 10000 + 1 * p.val = r.val; omega
    | ⟨1, _⟩ => show win1_2.index t (1 : Fin 2) * 128 + 1 * q.val = q.val; omega
  rw [hemb, relu0_apply, addRow_apply]
  refine (pay1_apply (iblk1 V c 0 t) (iblk1 V c 1 t) p q).trans ?_
  rw [blk1_0 V c t p q r hr, blk1_1 V c t q]

/-- An index of the output array is in point t's block iff each coordinate is in the block's range on its axis. -/
theorem mem_blk1 (t : Fin cfg1.N) (i : S50000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v50).slice (win1_2.rect t)).set ↔ _
  rw [View.set_slice_whole, Rect.mem_set_unit]
  exact Iff.rfl

/-- Row r of the output array is in the block of point r / 10000: the five blocks cover the array. -/
theorem cover1 (i : S50000x128.Idx) :
    ∃ t : Fin cfg1.N, (cfg1.win 2).flush t = true ∧ i ∈ ((cfg1.win 2).blk t).view.set := by
  have hN : cfg1.N = 5 := N_1
  have h0 : (i 0).val < 50000 := idx2_lt0 i
  have h1 : (i 1).val < 128 := idx2_lt1 i
  obtain ⟨t, ht⟩ : ∃ t : Fin cfg1.N, t.val = (i 0).val / 10000 := ⟨⟨(i 0).val / 10000, by omega⟩, rfl⟩
  obtain ⟨-, -, -, e4, e5⟩ := idx1 t
  refine ⟨t, flush1_2 t, ?_⟩
  rw [mem_blk1]
  intro a
  match a with
  | ⟨0, _⟩ =>
    show win1_2.index t (0 : Fin 2) * 10000 ≤ (i 0).val ∧ (i 0).val < win1_2.index t (0 : Fin 2) * 10000 + 10000
    omega
  | ⟨1, _⟩ =>
    show win1_2.index t (1 : Fin 2) * 128 ≤ (i 1).val ∧ (i 1).val < win1_2.index t (1 : Fin 2) * 128 + 128
    omega

/-- The output array after region 1: the input array plus the bias row, rectified. -/
theorem arr1 : (dat1 (F := Ideal) V c).arrAt 2 cfg1.N = relu0 (addRow (V c main_v47) (V c main_v49)) :=
  (dat1 (F := Ideal) V c).arrAt_eq_of_cover 2 (relu0 (addRow (M := 50000) (N := 128) (V c main_v47) (V c main_v49)))
    (fun t _ => flushed1 V c t) (cover1)

/-! ## Region 3 -/

/-- The stored value at entry (p, q) of a block: the input block's entry plus entry q of the bias, or zero if that is larger. -/
theorem pay3_apply (x0 : Vec Ideal S10000x128 .f32) (x1 : Vec Ideal S128 .f32) (p : Fin 10000) (q : Fin 128) :
    k3_pay1 (F := Ideal) x0 x1 (ix2 p q) = max (x0 (ix2 p q) + x1 (ix1 q)) (Ideal.ofBits .f32 0x00000000#32) := by
  unfold k3_pay1
  rw [shapeCast_self, shapeCast_self]
  show max (x0 (ix2 p q) + broadcastTo S10000x128 (shapeCast S1x128 x1 shapeCasts_S128_S1x128) broadcasts_S1x128_S10000x128 (ix2 p q))
      (Ideal.ofBits .f32 0x00000000#32) = _
  exact congrArg (fun z => max (x0 (ix2 p q) + z) (Ideal.ofBits .f32 0x00000000#32)) (rowBroadcast_apply x1 p q)

/-- Where the windows' blocks sit at grid point t: the input's and the output's at row block t, the bias whole. -/
theorem idx3 : ∀ t : Fin cfg3.N,
    win3_0.index t (0 : Fin 2) = t.val ∧ win3_0.index t (1 : Fin 2) = 0
    ∧ win3_1.index t (0 : Fin 1) = 0
    ∧ win3_2.index t (0 : Fin 2) = t.val ∧ win3_2.index t (1 : Fin 2) = 0 :=
  (by decide +kernel : ∀ t : Fin grid3.N, _)

/-- Entry (p, q) of the input's block at point t is entry (10000 t + p, q) of the input array. -/
theorem blk3_0 (t : Fin cfg3.N) (p : Fin 10000) (q : Fin 128) (r : Fin 50000) (hr : r.val = t.val * 10000 + p.val) :
    (iblk3 V c 0 t : Vec Ideal S10000x128 .f32) (ix2 p q) = (V c main_v65 : S50000x128.Idx → EReal) (ix2 r q) := by
  obtain ⟨e0, e1, -⟩ := idx3 t
  unfold iblk3
  rw [View.read_apply]
  show (V c main_v65 : S50000x128.Idx → EReal) (((cfg3.win 0).blk t).view.emb (ix2 p q)) = _
  congr 1
  funext a
  apply Fin.ext
  match a with
  | ⟨0, _⟩ => show win3_0.index t (0 : Fin 2) * 10000 + 1 * p.val = r.val; omega
  | ⟨1, _⟩ => show win3_0.index t (1 : Fin 2) * 128 + 1 * q.val = q.val; omega

/-- The bias's block at every point is the bias array. -/
theorem blk3_1 (t : Fin cfg3.N) (q : Fin 128) :
    (iblk3 V c 1 t : Vec Ideal S128 .f32) (ix1 q) = (V c main_v67 : S128.Idx → EReal) (ix1 q) := by
  obtain ⟨-, -, e2, -⟩ := idx3 t
  unfold iblk3
  rw [View.read_apply]
  show (V c main_v67 : S128.Idx → EReal) (((cfg3.win 1).blk t).view.emb (ix1 q)) = _
  congr 1
  funext a
  apply Fin.ext
  match a with
  | ⟨0, _⟩ => show win3_1.index t (0 : Fin 1) * 128 + 1 * q.val = q.val; omega

/-- What grid point t writes back is block t of the rectified sum of the input array and the bias row. -/
theorem flushed3 (t : Fin cfg3.N) :
    (dat3 (F := Ideal) V c).flushed 2 t
      = ((cfg3.win 2).blk t).view.read (Elt Ideal) (relu0 (addRow (M := 50000) (N := 128) (V c main_v65) (V c main_v67))) := by
  show (cfg3.win 2).cut (grid3.coords t) ((dat3 V c).after 2 t) = _
  rw [after3_2]
  unfold out3_2
  rw [View.canon_unit_zero zeroOffRow2]
  simp only [View.ld_unit_zero (S := S10000x128) zeroOffRow2, View.ld_unit_zero (S := S128) zeroOff1]
  have hN : cfg3.N = 5 := N_3
  have ht : t.val < 5 := by have := t.isLt; omega
  obtain ⟨-, -, -, e4, e5⟩ := idx3 t
  funext j
  obtain ⟨p, q, rfl⟩ : ∃ (p : Fin 10000) (q : Fin 128), j = ix2 p q := ⟨j 0, j 1, eq_ix2 j⟩
  obtain ⟨r, hr⟩ : ∃ r : Fin 50000, r.val = t.val * 10000 + p.val := ⟨⟨t.val * 10000 + p.val, by omega⟩, rfl⟩
  show k3_pay1 (F := Ideal) (iblk3 V c 0 t) (iblk3 V c 1 t) (ix2 p q)
    = relu0 (addRow (M := 50000) (N := 128) (V c main_v65) (V c main_v67)) (((cfg3.win 2).blk t).view.emb (ix2 p q))
  have hemb : ((cfg3.win 2).blk t).view.emb (ix2 p q) = (ix2 r q : S50000x128.Idx) := by
    funext a
    apply Fin.ext
    match a with
    | ⟨0, _⟩ => show win3_2.index t (0 : Fin 2) * 10000 + 1 * p.val = r.val; omega
    | ⟨1, _⟩ => show win3_2.index t (1 : Fin 2) * 128 + 1 * q.val = q.val; omega
  rw [hemb, relu0_apply, addRow_apply]
  refine (pay3_apply (iblk3 V c 0 t) (iblk3 V c 1 t) p q).trans ?_
  rw [blk3_0 V c t p q r hr, blk3_1 V c t q]

/-- An index of the output array is in point t's block iff each coordinate is in the block's range on its axis. -/
theorem mem_blk3 (t : Fin cfg3.N) (i : S50000x128.Idx) :
    i ∈ ((cfg3.win 2).blk t).view.set ↔ ∀ a : Fin 2, win3_2.index t a * S10000x128.size a ≤ (i a).val ∧ (i a).val < win3_2.index t a * S10000x128.size a + S10000x128.size a := by
  show i ∈ ((View.whole main_v68).slice (win3_2.rect t)).set ↔ _
  rw [View.set_slice_whole, Rect.mem_set_unit]
  exact Iff.rfl

/-- Row r of the output array is in the block of point r / 10000: the five blocks cover the array. -/
theorem cover3 (i : S50000x128.Idx) :
    ∃ t : Fin cfg3.N, (cfg3.win 2).flush t = true ∧ i ∈ ((cfg3.win 2).blk t).view.set := by
  have hN : cfg3.N = 5 := N_3
  have h0 : (i 0).val < 50000 := idx2_lt0 i
  have h1 : (i 1).val < 128 := idx2_lt1 i
  obtain ⟨t, ht⟩ : ∃ t : Fin cfg3.N, t.val = (i 0).val / 10000 := ⟨⟨(i 0).val / 10000, by omega⟩, rfl⟩
  obtain ⟨-, -, -, e4, e5⟩ := idx3 t
  refine ⟨t, flush3_2 t, ?_⟩
  rw [mem_blk3]
  intro a
  match a with
  | ⟨0, _⟩ =>
    show win3_2.index t (0 : Fin 2) * 10000 ≤ (i 0).val ∧ (i 0).val < win3_2.index t (0 : Fin 2) * 10000 + 10000
    omega
  | ⟨1, _⟩ =>
    show win3_2.index t (1 : Fin 2) * 128 ≤ (i 1).val ∧ (i 1).val < win3_2.index t (1 : Fin 2) * 128 + 128
    omega

/-- The output array after region 3: the input array plus the bias row, rectified. -/
theorem arr3 : (dat3 (F := Ideal) V c).arrAt 2 cfg3.N = relu0 (addRow (V c main_v65) (V c main_v67)) :=
  (dat3 (F := Ideal) V c).arrAt_eq_of_cover 2 (relu0 (addRow (M := 50000) (N := 128) (V c main_v65) (V c main_v67)))
    (fun t _ => flushed3 V c t) (cover3)

/-! ## Region 5 -/

/-- The stored value at entry (p, q) of a block: the input block's entry plus entry q of the bias, or zero if that is larger. -/
theorem pay5_apply (x0 : Vec Ideal S10000x128 .f32) (x1 : Vec Ideal S128 .f32) (p : Fin 10000) (q : Fin 128) :
    k5_pay1 (F := Ideal) x0 x1 (ix2 p q) = max (x0 (ix2 p q) + x1 (ix1 q)) (Ideal.ofBits .f32 0x00000000#32) := by
  unfold k5_pay1
  rw [shapeCast_self, shapeCast_self]
  show max (x0 (ix2 p q) + broadcastTo S10000x128 (shapeCast S1x128 x1 shapeCasts_S128_S1x128) broadcasts_S1x128_S10000x128 (ix2 p q))
      (Ideal.ofBits .f32 0x00000000#32) = _
  exact congrArg (fun z => max (x0 (ix2 p q) + z) (Ideal.ofBits .f32 0x00000000#32)) (rowBroadcast_apply x1 p q)

/-- Where the windows' blocks sit at grid point t: the input's and the output's at row block t, the bias whole. -/
theorem idx5 : ∀ t : Fin cfg5.N,
    win5_0.index t (0 : Fin 2) = t.val ∧ win5_0.index t (1 : Fin 2) = 0
    ∧ win5_1.index t (0 : Fin 1) = 0
    ∧ win5_2.index t (0 : Fin 2) = t.val ∧ win5_2.index t (1 : Fin 2) = 0 :=
  (by decide +kernel : ∀ t : Fin grid5.N, _)

/-- Entry (p, q) of the input's block at point t is entry (10000 t + p, q) of the input array. -/
theorem blk5_0 (t : Fin cfg5.N) (p : Fin 10000) (q : Fin 128) (r : Fin 50000) (hr : r.val = t.val * 10000 + p.val) :
    (iblk5 V c 0 t : Vec Ideal S10000x128 .f32) (ix2 p q) = (V c main_v83 : S50000x128.Idx → EReal) (ix2 r q) := by
  obtain ⟨e0, e1, -⟩ := idx5 t
  unfold iblk5
  rw [View.read_apply]
  show (V c main_v83 : S50000x128.Idx → EReal) (((cfg5.win 0).blk t).view.emb (ix2 p q)) = _
  congr 1
  funext a
  apply Fin.ext
  match a with
  | ⟨0, _⟩ => show win5_0.index t (0 : Fin 2) * 10000 + 1 * p.val = r.val; omega
  | ⟨1, _⟩ => show win5_0.index t (1 : Fin 2) * 128 + 1 * q.val = q.val; omega

/-- The bias's block at every point is the bias array. -/
theorem blk5_1 (t : Fin cfg5.N) (q : Fin 128) :
    (iblk5 V c 1 t : Vec Ideal S128 .f32) (ix1 q) = (V c main_v85 : S128.Idx → EReal) (ix1 q) := by
  obtain ⟨-, -, e2, -⟩ := idx5 t
  unfold iblk5
  rw [View.read_apply]
  show (V c main_v85 : S128.Idx → EReal) (((cfg5.win 1).blk t).view.emb (ix1 q)) = _
  congr 1
  funext a
  apply Fin.ext
  match a with
  | ⟨0, _⟩ => show win5_1.index t (0 : Fin 1) * 128 + 1 * q.val = q.val; omega

/-- What grid point t writes back is block t of the rectified sum of the input array and the bias row. -/
theorem flushed5 (t : Fin cfg5.N) :
    (dat5 (F := Ideal) V c).flushed 2 t
      = ((cfg5.win 2).blk t).view.read (Elt Ideal) (relu0 (addRow (M := 50000) (N := 128) (V c main_v83) (V c main_v85))) := by
  show (cfg5.win 2).cut (grid5.coords t) ((dat5 V c).after 2 t) = _
  rw [after5_2]
  unfold out5_2
  rw [View.canon_unit_zero zeroOffRow2]
  simp only [View.ld_unit_zero (S := S10000x128) zeroOffRow2, View.ld_unit_zero (S := S128) zeroOff1]
  have hN : cfg5.N = 5 := N_5
  have ht : t.val < 5 := by have := t.isLt; omega
  obtain ⟨-, -, -, e4, e5⟩ := idx5 t
  funext j
  obtain ⟨p, q, rfl⟩ : ∃ (p : Fin 10000) (q : Fin 128), j = ix2 p q := ⟨j 0, j 1, eq_ix2 j⟩
  obtain ⟨r, hr⟩ : ∃ r : Fin 50000, r.val = t.val * 10000 + p.val := ⟨⟨t.val * 10000 + p.val, by omega⟩, rfl⟩
  show k5_pay1 (F := Ideal) (iblk5 V c 0 t) (iblk5 V c 1 t) (ix2 p q)
    = relu0 (addRow (M := 50000) (N := 128) (V c main_v83) (V c main_v85)) (((cfg5.win 2).blk t).view.emb (ix2 p q))
  have hemb : ((cfg5.win 2).blk t).view.emb (ix2 p q) = (ix2 r q : S50000x128.Idx) := by
    funext a
    apply Fin.ext
    match a with
    | ⟨0, _⟩ => show win5_2.index t (0 : Fin 2) * 10000 + 1 * p.val = r.val; omega
    | ⟨1, _⟩ => show win5_2.index t (1 : Fin 2) * 128 + 1 * q.val = q.val; omega
  rw [hemb, relu0_apply, addRow_apply]
  refine (pay5_apply (iblk5 V c 0 t) (iblk5 V c 1 t) p q).trans ?_
  rw [blk5_0 V c t p q r hr, blk5_1 V c t q]

/-- An index of the output array is in point t's block iff each coordinate is in the block's range on its axis. -/
theorem mem_blk5 (t : Fin cfg5.N) (i : S50000x128.Idx) :
    i ∈ ((cfg5.win 2).blk t).view.set ↔ ∀ a : Fin 2, win5_2.index t a * S10000x128.size a ≤ (i a).val ∧ (i a).val < win5_2.index t a * S10000x128.size a + S10000x128.size a := by
  show i ∈ ((View.whole main_v86).slice (win5_2.rect t)).set ↔ _
  rw [View.set_slice_whole, Rect.mem_set_unit]
  exact Iff.rfl

/-- Row r of the output array is in the block of point r / 10000: the five blocks cover the array. -/
theorem cover5 (i : S50000x128.Idx) :
    ∃ t : Fin cfg5.N, (cfg5.win 2).flush t = true ∧ i ∈ ((cfg5.win 2).blk t).view.set := by
  have hN : cfg5.N = 5 := N_5
  have h0 : (i 0).val < 50000 := idx2_lt0 i
  have h1 : (i 1).val < 128 := idx2_lt1 i
  obtain ⟨t, ht⟩ : ∃ t : Fin cfg5.N, t.val = (i 0).val / 10000 := ⟨⟨(i 0).val / 10000, by omega⟩, rfl⟩
  obtain ⟨-, -, -, e4, e5⟩ := idx5 t
  refine ⟨t, flush5_2 t, ?_⟩
  rw [mem_blk5]
  intro a
  match a with
  | ⟨0, _⟩ =>
    show win5_2.index t (0 : Fin 2) * 10000 ≤ (i 0).val ∧ (i 0).val < win5_2.index t (0 : Fin 2) * 10000 + 10000
    omega
  | ⟨1, _⟩ =>
    show win5_2.index t (1 : Fin 2) * 128 ≤ (i 1).val ∧ (i 1).val < win5_2.index t (1 : Fin 2) * 128 + 128
    omega

/-- The output array after region 5: the input array plus the bias row, rectified. -/
theorem arr5 : (dat5 (F := Ideal) V c).arrAt 2 cfg5.N = relu0 (addRow (V c main_v83) (V c main_v85)) :=
  (dat5 (F := Ideal) V c).arrAt_eq_of_cover 2 (relu0 (addRow (M := 50000) (N := 128) (V c main_v83) (V c main_v85)))
    (fun t _ => flushed5 V c t) (cover5)

/-! ## Region 7 -/

/-- The stored value at entry (p, q) of a block: the input block's entry plus entry q of the bias, or zero if that is larger. -/
theorem pay7_apply (x0 : Vec Ideal S10000x128 .f32) (x1 : Vec Ideal S128 .f32) (p : Fin 10000) (q : Fin 128) :
    k7_pay1 (F := Ideal) x0 x1 (ix2 p q) = max (x0 (ix2 p q) + x1 (ix1 q)) (Ideal.ofBits .f32 0x00000000#32) := by
  unfold k7_pay1
  rw [shapeCast_self, shapeCast_self]
  show max (x0 (ix2 p q) + broadcastTo S10000x128 (shapeCast S1x128 x1 shapeCasts_S128_S1x128) broadcasts_S1x128_S10000x128 (ix2 p q))
      (Ideal.ofBits .f32 0x00000000#32) = _
  exact congrArg (fun z => max (x0 (ix2 p q) + z) (Ideal.ofBits .f32 0x00000000#32)) (rowBroadcast_apply x1 p q)

/-- Where the windows' blocks sit at grid point t: the input's and the output's at row block t, the bias whole. -/
theorem idx7 : ∀ t : Fin cfg7.N,
    win7_0.index t (0 : Fin 2) = t.val ∧ win7_0.index t (1 : Fin 2) = 0
    ∧ win7_1.index t (0 : Fin 1) = 0
    ∧ win7_2.index t (0 : Fin 2) = t.val ∧ win7_2.index t (1 : Fin 2) = 0 :=
  (by decide +kernel : ∀ t : Fin grid7.N, _)

/-- Entry (p, q) of the input's block at point t is entry (10000 t + p, q) of the input array. -/
theorem blk7_0 (t : Fin cfg7.N) (p : Fin 10000) (q : Fin 128) (r : Fin 50000) (hr : r.val = t.val * 10000 + p.val) :
    (iblk7 V c 0 t : Vec Ideal S10000x128 .f32) (ix2 p q) = (V c main_v101 : S50000x128.Idx → EReal) (ix2 r q) := by
  obtain ⟨e0, e1, -⟩ := idx7 t
  unfold iblk7
  rw [View.read_apply]
  show (V c main_v101 : S50000x128.Idx → EReal) (((cfg7.win 0).blk t).view.emb (ix2 p q)) = _
  congr 1
  funext a
  apply Fin.ext
  match a with
  | ⟨0, _⟩ => show win7_0.index t (0 : Fin 2) * 10000 + 1 * p.val = r.val; omega
  | ⟨1, _⟩ => show win7_0.index t (1 : Fin 2) * 128 + 1 * q.val = q.val; omega

/-- The bias's block at every point is the bias array. -/
theorem blk7_1 (t : Fin cfg7.N) (q : Fin 128) :
    (iblk7 V c 1 t : Vec Ideal S128 .f32) (ix1 q) = (V c main_v103 : S128.Idx → EReal) (ix1 q) := by
  obtain ⟨-, -, e2, -⟩ := idx7 t
  unfold iblk7
  rw [View.read_apply]
  show (V c main_v103 : S128.Idx → EReal) (((cfg7.win 1).blk t).view.emb (ix1 q)) = _
  congr 1
  funext a
  apply Fin.ext
  match a with
  | ⟨0, _⟩ => show win7_1.index t (0 : Fin 1) * 128 + 1 * q.val = q.val; omega

/-- What grid point t writes back is block t of the rectified sum of the input array and the bias row. -/
theorem flushed7 (t : Fin cfg7.N) :
    (dat7 (F := Ideal) V c).flushed 2 t
      = ((cfg7.win 2).blk t).view.read (Elt Ideal) (relu0 (addRow (M := 50000) (N := 128) (V c main_v101) (V c main_v103))) := by
  show (cfg7.win 2).cut (grid7.coords t) ((dat7 V c).after 2 t) = _
  rw [after7_2]
  unfold out7_2
  rw [View.canon_unit_zero zeroOffRow2]
  simp only [View.ld_unit_zero (S := S10000x128) zeroOffRow2, View.ld_unit_zero (S := S128) zeroOff1]
  have hN : cfg7.N = 5 := N_7
  have ht : t.val < 5 := by have := t.isLt; omega
  obtain ⟨-, -, -, e4, e5⟩ := idx7 t
  funext j
  obtain ⟨p, q, rfl⟩ : ∃ (p : Fin 10000) (q : Fin 128), j = ix2 p q := ⟨j 0, j 1, eq_ix2 j⟩
  obtain ⟨r, hr⟩ : ∃ r : Fin 50000, r.val = t.val * 10000 + p.val := ⟨⟨t.val * 10000 + p.val, by omega⟩, rfl⟩
  show k7_pay1 (F := Ideal) (iblk7 V c 0 t) (iblk7 V c 1 t) (ix2 p q)
    = relu0 (addRow (M := 50000) (N := 128) (V c main_v101) (V c main_v103)) (((cfg7.win 2).blk t).view.emb (ix2 p q))
  have hemb : ((cfg7.win 2).blk t).view.emb (ix2 p q) = (ix2 r q : S50000x128.Idx) := by
    funext a
    apply Fin.ext
    match a with
    | ⟨0, _⟩ => show win7_2.index t (0 : Fin 2) * 10000 + 1 * p.val = r.val; omega
    | ⟨1, _⟩ => show win7_2.index t (1 : Fin 2) * 128 + 1 * q.val = q.val; omega
  rw [hemb, relu0_apply, addRow_apply]
  refine (pay7_apply (iblk7 V c 0 t) (iblk7 V c 1 t) p q).trans ?_
  rw [blk7_0 V c t p q r hr, blk7_1 V c t q]

/-- An index of the output array is in point t's block iff each coordinate is in the block's range on its axis. -/
theorem mem_blk7 (t : Fin cfg7.N) (i : S50000x128.Idx) :
    i ∈ ((cfg7.win 2).blk t).view.set ↔ ∀ a : Fin 2, win7_2.index t a * S10000x128.size a ≤ (i a).val ∧ (i a).val < win7_2.index t a * S10000x128.size a + S10000x128.size a := by
  show i ∈ ((View.whole main_v104).slice (win7_2.rect t)).set ↔ _
  rw [View.set_slice_whole, Rect.mem_set_unit]
  exact Iff.rfl

/-- Row r of the output array is in the block of point r / 10000: the five blocks cover the array. -/
theorem cover7 (i : S50000x128.Idx) :
    ∃ t : Fin cfg7.N, (cfg7.win 2).flush t = true ∧ i ∈ ((cfg7.win 2).blk t).view.set := by
  have hN : cfg7.N = 5 := N_7
  have h0 : (i 0).val < 50000 := idx2_lt0 i
  have h1 : (i 1).val < 128 := idx2_lt1 i
  obtain ⟨t, ht⟩ : ∃ t : Fin cfg7.N, t.val = (i 0).val / 10000 := ⟨⟨(i 0).val / 10000, by omega⟩, rfl⟩
  obtain ⟨-, -, -, e4, e5⟩ := idx7 t
  refine ⟨t, flush7_2 t, ?_⟩
  rw [mem_blk7]
  intro a
  match a with
  | ⟨0, _⟩ =>
    show win7_2.index t (0 : Fin 2) * 10000 ≤ (i 0).val ∧ (i 0).val < win7_2.index t (0 : Fin 2) * 10000 + 10000
    omega
  | ⟨1, _⟩ =>
    show win7_2.index t (1 : Fin 2) * 128 ≤ (i 1).val ∧ (i 1).val < win7_2.index t (1 : Fin 2) * 128 + 128
    omega

/-- The output array after region 7: the input array plus the bias row, rectified. -/
theorem arr7 : (dat7 (F := Ideal) V c).arrAt 2 cfg7.N = relu0 (addRow (V c main_v101) (V c main_v103)) :=
  (dat7 (F := Ideal) V c).arrAt_eq_of_cover 2 (relu0 (addRow (M := 50000) (N := 128) (V c main_v101) (V c main_v103)))
    (fun t _ => flushed7 V c t) (cover7)

end Cert.KernelIdeal.Regions

end
-- ==== Proof.RegionMlp.lean ====
/-
  The value of the last region: the perceptron applied to the pooled graph features.

  The region has one grid point and every window is a whole array, so each input block is its array and the one
  write-back writes the whole output. The body's payload, read entry by entry over the extended reals, is the first
  product (pooled features times the first weight matrix) plus the first bias row, the entrywise maximum with zero,
  the second product (with the second weight matrix) and the second bias row: the products accumulate into a zero
  splat, so each entry is the bare sum over the contracted axis; a bias vector cast to one row and spread over all
  rows is read at an entry's column.
-/
import proofs.«122397_j86268713107994_1_alg».proof.Proof.Gen.KernelIdeal.Frame
import proofs.«122397_j86268713107994_1_alg».proof.Proof.Spec
import proofs.«122397_j86268713107994_1_alg».proof.Proof.LibMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.Spec Cert.LibMatmul

/-! ## The payload, entry by entry -/

/-- The hidden stage at an entry: the first product plus the bias row's entry, then the maximum with zero. -/
theorem hidden8_apply (x0 : FVec Ideal S500x128 .f32) (x1 : FVec Ideal S128x128 .f32) (x2 : FVec Ideal S128 .f32)
    (p : Fin 500) (k : Fin 128) :
    maximumf (addf (matmul dot_S500x128_S128x128_S500x128_1_0_0_1_n_n none (shapeCast S500x128 x0 shapeCasts_S500x128_S500x128) x1
        (constant (F := Ideal) S500x128 .f32 0x00000000#32))
      (broadcastTo S500x128 (shapeCast S1x128 x2 shapeCasts_S128_S1x128) broadcasts_S1x128_S500x128))
      (broadcast S500x128 (Scalar.ofBits (F := Ideal) .f32 0x00000000#32)) (ix2 p k)
      = relu0 (addRow (prodArr x0 x1) x2) (ix2 p k) := by
  rw [maximumf_apply, addf_apply, broadcast_apply, relu0_apply, addRow_apply, prodArr_apply, shapeCast_self]
  refine congrArg₂ max (congrArg₂ (· + ·) ?_ ?_) rfl
  · exact matmul_plain_zero_apply none x0 x1 p k
  · exact (broadcastTo_1b_ab_apply _ broadcasts_S1x128_S500x128 p k).trans (shapeCast_a_1a_apply x2 shapeCasts_S128_S1x128 0 k)

/-- The body's payload is the perceptron of its five loaded blocks. -/
theorem pay8_eq (x0 : Vec Ideal S500x128 .f32) (x1 : Vec Ideal S128x128 .f32) (x2 : Vec Ideal S128 .f32)
    (x3 : Vec Ideal S128x10 .f32) (x4 : Vec Ideal S10 .f32) :
    k8_pay1 (F := Ideal) x0 x1 x2 x3 x4 = addRow (prodArr (relu0 (addRow (prodArr x0 x1) x2)) x3) x4 := by
  refine ext2 fun p q => ?_
  unfold k8_pay1
  rw [addf_apply, addRow_apply, prodArr_apply]
  refine congrArg₂ (· + ·) ?_ ?_
  · refine (matmul_plain_zero_apply none _ x3 p q).trans ?_
    exact Finset.sum_congr rfl fun k _ => congrArg (· * x3 (ix2 k q)) (hidden8_apply x0 x1 x2 p k)
  · exact (broadcastTo_1b_ab_apply _ broadcasts_S1x10_S500x10 p q).trans (shapeCast_a_1a_apply x4 shapeCasts_S10_S1x10 0 q)

/-! ## Each block is its array: one grid point, every window whole -/

variable (V : (c : Dev nD) → (b : Ref sig .tc) → Buf (Elt Ideal) ((c : Thread nD τ).loc b))

/-- The pooled features' block is the whole array. -/
theorem blk8_0 (c : Dev nD) (t : Fin cfg8.N) : iblk8 (F := Ideal) V c 0 t = V c main_v116 := by
  obtain rfl := fin_N8 t
  unfold iblk8
  have hz' : (fun a => win8_0.index t8_0 a * main_v116.ty.shape.size a) = fun _ => 0 := funext fun a => by fin_cases a <;> decide
  exact Memref.read_access_unit_zero (Elt Ideal) main_v116 hz' (fun a => by rw [congrFun hz' a]; simp) (V c main_v116)
/-- The first weight matrix's block is the whole array. -/
theorem blk8_1 (c : Dev nD) (t : Fin cfg8.N) : iblk8 (F := Ideal) V c 1 t = V c main_arg5 := by
  obtain rfl := fin_N8 t
  unfold iblk8
  have hz' : (fun a => win8_1.index t8_0 a * main_arg5.ty.shape.size a) = fun _ => 0 := funext fun a => by fin_cases a <;> decide
  exact Memref.read_access_unit_zero (Elt Ideal) main_arg5 hz' (fun a => by rw [congrFun hz' a]; simp) (V c main_arg5)
/-- The first bias vector's block is the whole array. -/
theorem blk8_2 (c : Dev nD) (t : Fin cfg8.N) : iblk8 (F := Ideal) V c 2 t = V c main_arg6 := by
  obtain rfl := fin_N8 t
  unfold iblk8
  have hz' : (fun a => win8_2.index t8_0 a * main_arg6.ty.shape.size a) = fun _ => 0 := funext fun a => by fin_cases a <;> decide
  exact Memref.read_access_unit_zero (Elt Ideal) main_arg6 hz' (fun a => by rw [congrFun hz' a]; simp) (V c main_arg6)
/-- The second weight matrix's block is the whole array. -/
theorem blk8_3 (c : Dev nD) (t : Fin cfg8.N) : iblk8 (F := Ideal) V c 3 t = V c main_arg7 := by
  obtain rfl := fin_N8 t
  unfold iblk8
  have hz' : (fun a => win8_3.index t8_0 a * main_arg7.ty.shape.size a) = fun _ => 0 := funext fun a => by fin_cases a <;> decide
  exact Memref.read_access_unit_zero (Elt Ideal) main_arg7 hz' (fun a => by rw [congrFun hz' a]; simp) (V c main_arg7)
/-- The second bias vector's block is the whole array. -/
theorem blk8_4 (c : Dev nD) (t : Fin cfg8.N) : iblk8 (F := Ideal) V c 4 t = V c main_arg8 := by
  obtain rfl := fin_N8 t
  unfold iblk8
  have hz' : (fun a => win8_4.index t8_0 a * main_arg8.ty.shape.size a) = fun _ => 0 := funext fun a => by fin_cases a <;> decide
  exact Memref.read_access_unit_zero (Elt Ideal) main_arg8 hz' (fun a => by rw [congrFun hz' a]; simp) (V c main_arg8)

theorem hz2 : (![0, 0] : Fin 2 → Nat) = fun _ => 0 := funext fun a => by fin_cases a <;> rfl
theorem hz1 : (![0] : Fin 1 → Nat) = fun _ => 0 := funext fun a => by fin_cases a; rfl

/-! ## The write-back and the array -/

/-- The perceptron of the region's five input arrays as the region finds them. -/
abbrev mlp8 (c : Dev nD) : (⟨2, ![500, 10]⟩ : Shape).Idx → EReal :=
  addRow (prodArr (relu0 (addRow (prodArr (V c main_v116) (V c main_arg5)) (V c main_arg6))) (V c main_arg7)) (V c main_arg8)

/-- The one write-back writes the perceptron's whole result: the output's block read through zero offsets is the array. -/
theorem flushed8_eq (c : Dev nD) (t : Fin cfg8.N) (hf : (cfg8.win 5).flush t = true) :
    (dat8 (F := Ideal) V c).flushed 5 t = ((cfg8.win 5).blk t).view.read (Elt Ideal) (mlp8 V c) := by
  obtain rfl := fin_N8 t
  show (cfg8.win 5).cut (grid8.coords t8_0) ((dat8 V c).after 5 t8_0) = _
  rw [after8_5, blk8_0, blk8_1, blk8_2, blk8_3, blk8_4]
  unfold out8_5
  rw [View.canon_unit_zero hz2]
  simp only [View.ld_unit_zero (S := S500x128) hz2, View.ld_unit_zero (S := S128x128) hz2, View.ld_unit_zero (S := S128) hz1,
    View.ld_unit_zero (S := S128x10) hz2, View.ld_unit_zero (S := S10) hz1]
  rw [pay8_eq]
  have hz' : (fun a => win8_5.index t8_0 a * main_v117.ty.shape.size a) = fun _ => 0 := funext fun a => by fin_cases a <;> decide
  exact (Memref.read_access_unit_zero (Elt Ideal) main_v117 hz' (fun a => by rw [congrFun hz' a]; simp) (mlp8 V c)).symm

/-- The output array after the region is the perceptron of the input arrays: the one point's block covers it. -/
theorem arr8 (c : Dev nD) : (dat8 (F := Ideal) V c).arrAt 5 cfg8.N
    = addRow (prodArr (relu0 (addRow (prodArr (V c main_v116) (V c main_arg5)) (V c main_arg6))) (V c main_arg7)) (V c main_arg8) :=
  (dat8 (F := Ideal) V c).arrAt_eq_of_cover 5 (mlp8 V c) (flushed8_eq V c) fun i =>
    ⟨t8_0, flush8_5 t8_0, by
      show i ∈ ((View.whole main_v117).slice (win8_5.rect t8_0)).set
      rw [View.set_slice_whole, Rect.mem_set_unit]
      intro a
      have h0 : (i 0 : Nat) < 500 := (i 0).isLt
      have h1 : (i 1 : Nat) < 10 := (i 1).isLt
      match a with
      | ⟨0, _⟩ => show win8_5.index t8_0 0 * win8_5.size 0 ≤ (i 0 : Nat) ∧ (i 0 : Nat) < win8_5.index t8_0 0 * win8_5.size 0 + win8_5.xsize (grid8.coords t8_0) 0
                  rw [show win8_5.index t8_0 0 * win8_5.size 0 = 0 from by decide +kernel, show win8_5.xsize (grid8.coords t8_0) 0 = 500 from by decide +kernel]; omega
      | ⟨1, _⟩ => show win8_5.index t8_0 1 * win8_5.size 1 ≤ (i 1 : Nat) ∧ (i 1 : Nat) < win8_5.index t8_0 1 * win8_5.size 1 + win8_5.xsize (grid8.coords t8_0) 1
                  rw [show win8_5.index t8_0 1 * win8_5.size 1 = 0 from by decide +kernel, show win8_5.xsize (grid8.coords t8_0) 1 = 10 from by decide +kernel]; omega⟩

end Cert.KernelIdeal.Regions

end
-- ==== Proof.RefOps.lean ====
/-
  The reference's dense stages as the three array functions of the specification.

  Each product of the reference (a contraction of the left operand's second axis with the right operand's first)
  is `prodArr` of its two operands; each layer's tail (a bias row spread over every row, added, then the entrywise
  maximum with the zero splat) is `relu0 (addRow · ·)` of the aggregated array and the bias row; the final
  perceptron is two such products with a bias row added after each and the maximum with zero between them.
  Every statement is read entry by entry: the composed index maps of the row spread send (p, q) to q, and the
  contraction's index maps send (p, q), k to (p, k) and (k, q).
-/
import proofs.«122397_j86268713107994_1_alg».proof.Proof.RefReadP
import proofs.«122397_j86268713107994_1_alg».proof.Proof.Spec
import proofs.«122397_j86268713107994_1_alg».proof.Proof.LibMatmul
import Idealize.ShloMosaic.Lib.ValueIdx
import Idealize.ShloMosaic.PureOps.Ideal.Laws

set_option maxRecDepth 16384

noncomputable section

namespace Cert.ReferenceIdeal.RefOps

open Cert.ReferenceIdeal Cert.ReferenceIdeal.ReadP Cert.Spec Idealize.ShloMosaic Idealize.ShloMosaic.ValueIdx

variable (x0 : (⟨S50000x128, .f32⟩ : BufTy).Contents (Elt Ideal)) (x1 : (⟨S2x800000, .i32⟩ : BufTy).Contents (Elt Ideal))
  (x2 : (⟨S50000, .i32⟩ : BufTy).Contents (Elt Ideal)) (x3 : (⟨S4x128x128, .f32⟩ : BufTy).Contents (Elt Ideal))
  (x4 : (⟨S4x128, .f32⟩ : BufTy).Contents (Elt Ideal)) (x5 : (⟨S128x128, .f32⟩ : BufTy).Contents (Elt Ideal))
  (x6 : (⟨S128, .f32⟩ : BufTy).Contents (Elt Ideal)) (x7 : (⟨S128x10, .f32⟩ : BufTy).Contents (Elt Ideal))
  (x8 : (⟨S10, .f32⟩ : BufTy).Contents (Elt Ideal))

/-! ## The index maps of a product and of a row spread, in coordinates -/

/-- A contraction's left index at entry (p, q) and contraction coordinate k is (p, k) … -/
theorem lidx35 (p : Fin 50000) (q : Fin 128) (k : Fin 128) : lidx_main_v35 (ix2 p q) k = ix2 p k :=
  funext fun a => Fin.ext (by match a with | ⟨0, _⟩ => rfl | ⟨1, _⟩ => rfl)
/-- … and its right index is (k, q). -/
theorem ridx35 (p : Fin 50000) (q : Fin 128) (k : Fin 128) : ridx_main_v35 (ix2 p q) k = ix2 k q :=
  funext fun a => Fin.ext (by match a with | ⟨0, _⟩ => rfl | ⟨1, _⟩ => rfl)

/-- The first layer's product: the node features times the first weight matrix. -/
theorem ref_v35 : val_main_v35 (F := Ideal) x0 x3 = prodArr x0 (val_main_v34 (F := Ideal) x3) := by
  refine ext2 fun p q => ?_
  rw [val_main_v35_apply, prodArr_apply]
  simp only [lidx35, ridx35]

/-- A bias row spread to one row and then over all rows is read at (p, q) at coordinate q. -/
theorem idx50_51 (p : Fin 50000) (q : Fin 128) : idx_main_v50 (idx_main_v51 (ix2 p q)) = ix1 q :=
  funext fun a => Fin.ext (by match a with | ⟨0, _⟩ => rfl)

/-- The first layer's tail: the bias row added to the aggregated array, then the maximum with zero. -/
theorem ref_v53 : val_main_v53 (F := Ideal) x0 x1 x3 x4 = relu0 (addRow (val_main_v47 (F := Ideal) x0 x1 x3) (val_main_v49 (F := Ideal) x4)) := by
  refine ext2 fun p q => ?_
  rw [val_main_v53_apply, val_main_v52_apply, val_main_v51_apply, val_main_v50_apply, val_main_call1_v0_apply,
    val_main_call1_cst_apply, relu0_apply, addRow_apply, idx50_51]
  rfl

/-! ## The later layers' products -/

theorem lidx56 (p : Fin 50000) (q : Fin 128) (k : Fin 128) : lidx_main_v56 (ix2 p q) k = ix2 p k :=
  funext fun a => Fin.ext (by match a with | ⟨0, _⟩ => rfl | ⟨1, _⟩ => rfl)
theorem ridx56 (p : Fin 50000) (q : Fin 128) (k : Fin 128) : ridx_main_v56 (ix2 p q) k = ix2 k q :=
  funext fun a => Fin.ext (by match a with | ⟨0, _⟩ => rfl | ⟨1, _⟩ => rfl)
theorem lidx77 (p : Fin 50000) (q : Fin 128) (k : Fin 128) : lidx_main_v77 (ix2 p q) k = ix2 p k :=
  funext fun a => Fin.ext (by match a with | ⟨0, _⟩ => rfl | ⟨1, _⟩ => rfl)
theorem ridx77 (p : Fin 50000) (q : Fin 128) (k : Fin 128) : ridx_main_v77 (ix2 p q) k = ix2 k q :=
  funext fun a => Fin.ext (by match a with | ⟨0, _⟩ => rfl | ⟨1, _⟩ => rfl)
theorem lidx98 (p : Fin 50000) (q : Fin 128) (k : Fin 128) : lidx_main_v98 (ix2 p q) k = ix2 p k :=
  funext fun a => Fin.ext (by match a with | ⟨0, _⟩ => rfl | ⟨1, _⟩ => rfl)
theorem ridx98 (p : Fin 50000) (q : Fin 128) (k : Fin 128) : ridx_main_v98 (ix2 p q) k = ix2 k q :=
  funext fun a => Fin.ext (by match a with | ⟨0, _⟩ => rfl | ⟨1, _⟩ => rfl)

/-- The second layer's product: the first layer's output times the second weight matrix. -/
theorem ref_v56 : val_main_v56 (F := Ideal) x0 x1 x3 x4 = prodArr (val_main_v53 (F := Ideal) x0 x1 x3 x4) (val_main_v55 (F := Ideal) x3) := by
  refine ext2 fun p q => ?_
  rw [val_main_v56_apply, prodArr_apply]
  simp only [lidx56, ridx56]

/-- The third layer's product. -/
theorem ref_v77 : val_main_v77 (F := Ideal) x0 x1 x3 x4 = prodArr (val_main_v74 (F := Ideal) x0 x1 x3 x4) (val_main_v76 (F := Ideal) x3) := by
  refine ext2 fun p q => ?_
  rw [val_main_v77_apply, prodArr_apply]
  simp only [lidx77, ridx77]

/-- The fourth layer's product. -/
theorem ref_v98 : val_main_v98 (F := Ideal) x0 x1 x3 x4 = prodArr (val_main_v95 (F := Ideal) x0 x1 x3 x4) (val_main_v97 (F := Ideal) x3) := by
  refine ext2 fun p q => ?_
  rw [val_main_v98_apply, prodArr_apply]
  simp only [lidx98, ridx98]

/-! ## The later layers' tails -/

theorem idx71_72 (p : Fin 50000) (q : Fin 128) : idx_main_v71 (idx_main_v72 (ix2 p q)) = ix1 q :=
  funext fun a => Fin.ext (by match a with | ⟨0, _⟩ => rfl)
theorem idx92_93 (p : Fin 50000) (q : Fin 128) : idx_main_v92 (idx_main_v93 (ix2 p q)) = ix1 q :=
  funext fun a => Fin.ext (by match a with | ⟨0, _⟩ => rfl)
theorem idx113_114 (p : Fin 50000) (q : Fin 128) : idx_main_v113 (idx_main_v114 (ix2 p q)) = ix1 q :=
  funext fun a => Fin.ext (by match a with | ⟨0, _⟩ => rfl)

/-- The second layer's tail. -/
theorem ref_v74 : val_main_v74 (F := Ideal) x0 x1 x3 x4 = relu0 (addRow (val_main_v68 (F := Ideal) x0 x1 x3 x4) (val_main_v70 (F := Ideal) x4)) := by
  refine ext2 fun p q => ?_
  rw [val_main_v74_apply, val_main_v73_apply, val_main_v72_apply, val_main_v71_apply, val_main_call2_v0_apply,
    val_main_call2_cst_apply, relu0_apply, addRow_apply, idx71_72]
  rfl

/-- The third layer's tail. -/
theorem ref_v95 : val_main_v95 (F := Ideal) x0 x1 x3 x4 = relu0 (addRow (val_main_v89 (F := Ideal) x0 x1 x3 x4) (val_main_v91 (F := Ideal) x4)) := by
  refine ext2 fun p q => ?_
  rw [val_main_v95_apply, val_main_v94_apply, val_main_v93_apply, val_main_v92_apply, val_main_call3_v0_apply,
    val_main_call3_cst_apply, relu0_apply, addRow_apply, idx92_93]
  rfl

/-- The fourth layer's tail. -/
theorem ref_v116 : val_main_v116 (F := Ideal) x0 x1 x3 x4 = relu0 (addRow (val_main_v110 (F := Ideal) x0 x1 x3 x4) (val_main_v112 (F := Ideal) x4)) := by
  refine ext2 fun p q => ?_
  rw [val_main_v116_apply, val_main_v115_apply, val_main_v114_apply, val_main_v113_apply, val_main_call4_v0_apply,
    val_main_call4_cst_apply, relu0_apply, addRow_apply, idx113_114]
  rfl

/-! ## The final perceptron -/

theorem lidx129 (p : Fin 500) (q : Fin 128) (k : Fin 128) : lidx_main_v129 (ix2 p q) k = ix2 p k :=
  funext fun a => Fin.ext (by match a with | ⟨0, _⟩ => rfl | ⟨1, _⟩ => rfl)
theorem ridx129 (p : Fin 500) (q : Fin 128) (k : Fin 128) : ridx_main_v129 (ix2 p q) k = ix2 k q :=
  funext fun a => Fin.ext (by match a with | ⟨0, _⟩ => rfl | ⟨1, _⟩ => rfl)
theorem lidx134 (p : Fin 500) (q : Fin 10) (k : Fin 128) : lidx_main_v134 (ix2 p q) k = ix2 p k :=
  funext fun a => Fin.ext (by match a with | ⟨0, _⟩ => rfl | ⟨1, _⟩ => rfl)
theorem ridx134 (p : Fin 500) (q : Fin 10) (k : Fin 128) : ridx_main_v134 (ix2 p q) k = ix2 k q :=
  funext fun a => Fin.ext (by match a with | ⟨0, _⟩ => rfl | ⟨1, _⟩ => rfl)
theorem idx130_131 (p : Fin 500) (q : Fin 128) : idx_main_v130 (idx_main_v131 (ix2 p q)) = ix1 q :=
  funext fun a => Fin.ext (by match a with | ⟨0, _⟩ => rfl)
theorem idx135_136 (p : Fin 500) (q : Fin 10) : idx_main_v135 (idx_main_v136 (ix2 p q)) = ix1 q :=
  funext fun a => Fin.ext (by match a with | ⟨0, _⟩ => rfl)

/-- The hidden stage of the perceptron at an entry: the first product plus its bias row, then the maximum with zero. -/
theorem ref_v133_apply (p : Fin 500) (q : Fin 128) :
    val_main_v133 (F := Ideal) x0 x1 x2 x3 x4 x5 x6 (ix2 p q)
      = relu0 (addRow (prodArr (val_main_v128 (F := Ideal) x0 x1 x2 x3 x4) x5) x6) (ix2 p q) := by
  rw [val_main_v133_apply, val_main_v132_apply, val_main_v131_apply, val_main_v130_apply, val_main_v129_apply,
    val_main_call5_v0_apply, val_main_call5_cst_apply, relu0_apply, addRow_apply, prodArr_apply, idx130_131]
  simp only [lidx129, ridx129]
  rfl

/-- The perceptron: the pooled features through two products, a bias row after each, the maximum with zero between. -/
theorem ref_v137 : val_main_v137 (F := Ideal) x0 x1 x2 x3 x4 x5 x6 x7 x8
    = addRow (prodArr (relu0 (addRow (prodArr (val_main_v128 (F := Ideal) x0 x1 x2 x3 x4) x5) x6)) x7) x8 := by
  refine ext2 fun p q => ?_
  rw [val_main_v137_apply, val_main_v136_apply, val_main_v135_apply, val_main_v134_apply, addRow_apply, prodArr_apply,
    idx135_136]
  simp only [lidx134, ridx134, ref_v133_apply]
  rfl

end Cert.ReferenceIdeal.RefOps

end
-- ==== Proof.SimChain.lean ====
/-
  The idealized kernel's result is the reference's result.

  Walk the kernel's run boundary by boundary.  At each boundary the buffer that carries the computation holds the
  reference's stage of the same meaning, as a function of the launch contents of the argument arrays: a projection
  region leaves the matrix product the reference's dot_general computes; the host stretch after it leaves the same
  aggregation along the edges (the edge lists and edge weights, computed once before region 0, are still in their
  buffers: no later segment writes them); a bias region leaves  max(xs + b, 0), the reference's add and relu; the last
  host stretch leaves the per-graph mean; and region 8 leaves the two-layer perceptron of it, which is the reference's
  result.  Every step is an equality of whole arrays.
-/
import proofs.«122397_j86268713107994_1_alg».proof.Proof.Keep
import proofs.«122397_j86268713107994_1_alg».proof.Proof.SimHost
import proofs.«122397_j86268713107994_1_alg».proof.Proof.RegionProj
import proofs.«122397_j86268713107994_1_alg».proof.Proof.RegionBias
import proofs.«122397_j86268713107994_1_alg».proof.Proof.RegionMlp
import proofs.«122397_j86268713107994_1_alg».proof.Proof.RefOps

set_option maxRecDepth 16384

noncomputable section

namespace Cert.KernelIdeal.Sim

open Cert.KernelIdeal Cert.KernelIdeal.Gen Cert.Spec
open Idealize.ShloMosaic Idealize.ShloMosaic.TcCoe Idealize.ShloMosaic.StableHlo
open Idealize.SL.Sem

variable (m : (ℓ : Loc nD τ sig) → Buf (Elt Ideal) ℓ) (ρ : Dev nD → PrngReg) (c : Dev nD)

/-! ## The arguments at region 0's entry -/

theorem arg0_3 : W3 m ρ c (Proc.devRef .tc main_arg0) = (m ((c : Thread nD τ).loc main_arg0)) := kept0 m ρ c main_arg0 (by decide)
theorem arg2_3 : W3 m ρ c (Proc.devRef .tc main_arg2) = (m ((c : Thread nD τ).loc main_arg2)) := kept0 m ρ c main_arg2 (by decide)
theorem arg3_3 : W3 m ρ c (Proc.devRef .tc main_arg3) = (m ((c : Thread nD τ).loc main_arg3)) := kept0 m ρ c main_arg3 (by decide)
theorem arg4_3 : W3 m ρ c (Proc.devRef .tc main_arg4) = (m ((c : Thread nD τ).loc main_arg4)) := kept0 m ρ c main_arg4 (by decide)
theorem arg5_3 : W3 m ρ c (Proc.devRef .tc main_arg5) = (m ((c : Thread nD τ).loc main_arg5)) := kept0 m ρ c main_arg5 (by decide)
theorem arg6_3 : W3 m ρ c (Proc.devRef .tc main_arg6) = (m ((c : Thread nD τ).loc main_arg6)) := kept0 m ρ c main_arg6 (by decide)
theorem arg7_3 : W3 m ρ c (Proc.devRef .tc main_arg7) = (m ((c : Thread nD τ).loc main_arg7)) := kept0 m ρ c main_arg7 (by decide)
theorem arg8_3 : W3 m ρ c (Proc.devRef .tc main_arg8) = (m ((c : Thread nD τ).loc main_arg8)) := kept0 m ρ c main_arg8 (by decide)

/-! ## Layer 1 -/

/-- Region 0: the node rows times the layer's weight. -/
theorem s4_h : W4 m ρ c (Proc.devRef .tc main_v35) = Cert.ReferenceIdeal.ReadP.val_main_v35 (F := Ideal) (m ((c : Thread nD τ).loc main_arg0)) (m ((c : Thread nD τ).loc main_arg3)) := by
  refine (W4_arr m ρ c 2).trans ((Regions.arr0 (V3 m ρ) c).trans ?_)
  rw [show V3 m ρ c main_arg0 = (m ((c : Thread nD τ).loc main_arg0)) from arg0_3 m ρ c,
    show V3 m ρ c main_v34 = Cert.ReferenceIdeal.ReadP.val_main_v34 (F := Ideal) (m ((c : Thread nD τ).loc main_arg3)) from h0_w m ρ c]
  exact (Cert.ReferenceIdeal.RefOps.ref_v35 _ _).symm

/-- The aggregation after region 0. -/
theorem s5_xs : W5 m ρ c (Proc.devRef .tc main_v47) = Cert.ReferenceIdeal.ReadP.val_main_v47 (F := Ideal) (m ((c : Thread nD τ).loc main_arg0)) (m ((c : Thread nD τ).loc main_arg1)) (m ((c : Thread nD τ).loc main_arg3)) :=
  h1_xs m ρ c _ _ _ (s4_h m ρ c)
    ((kept m ρ c main_v3 (by decide)).e4.trans (h0_row m ρ c))
    ((kept m ρ c main_v6 (by decide)).e4.trans (h0_col m ρ c))
    ((kept m ρ c main_v32 (by decide)).e4.trans (h0_nrm m ρ c))
/-- The bias row of that layer. -/
theorem s5_b : W5 m ρ c (Proc.devRef .tc main_v49) = Cert.ReferenceIdeal.ReadP.val_main_v49 (F := Ideal) (m ((c : Thread nD τ).loc main_arg4)) :=
  h1_b m ρ c _ ((kept m ρ c main_arg4 (by decide)).e4.trans (arg4_3 m ρ c))
/-- Region 1: the bias added to every row, clamped at zero. -/
theorem s6_x : W6 m ρ c (Proc.devRef .tc main_v50) = Cert.ReferenceIdeal.ReadP.val_main_v53 (F := Ideal) (m ((c : Thread nD τ).loc main_arg0)) (m ((c : Thread nD τ).loc main_arg1)) (m ((c : Thread nD τ).loc main_arg3)) (m ((c : Thread nD τ).loc main_arg4)) := by
  refine (W6_arr m ρ c 2).trans ((Regions.arr1 (V5 m ρ) c).trans ?_)
  rw [show V5 m ρ c main_v47 = Cert.ReferenceIdeal.ReadP.val_main_v47 (F := Ideal) (m ((c : Thread nD τ).loc main_arg0)) (m ((c : Thread nD τ).loc main_arg1)) (m ((c : Thread nD τ).loc main_arg3)) from s5_xs m ρ c,
    show V5 m ρ c main_v49 = Cert.ReferenceIdeal.ReadP.val_main_v49 (F := Ideal) (m ((c : Thread nD τ).loc main_arg4)) from s5_b m ρ c]
  exact (Cert.ReferenceIdeal.RefOps.ref_v53 _ _ _ _).symm

/-! ## Layer 2 -/

/-- Region 2: the node rows times the layer's weight. -/
theorem s8_h : W8 m ρ c (Proc.devRef .tc main_v53) = Cert.ReferenceIdeal.ReadP.val_main_v56 (F := Ideal) (m ((c : Thread nD τ).loc main_arg0)) (m ((c : Thread nD τ).loc main_arg1)) (m ((c : Thread nD τ).loc main_arg3)) (m ((c : Thread nD τ).loc main_arg4)) := by
  refine (W8_arr m ρ c 2).trans ((Regions.arr2 (V7 m ρ) c).trans ?_)
  rw [show V7 m ρ c main_v50 = Cert.ReferenceIdeal.ReadP.val_main_v53 (F := Ideal) (m ((c : Thread nD τ).loc main_arg0)) (m ((c : Thread nD τ).loc main_arg1)) (m ((c : Thread nD τ).loc main_arg3)) (m ((c : Thread nD τ).loc main_arg4)) from (h2_x m ρ c).trans (s6_x m ρ c),
    show V7 m ρ c main_v52 = Cert.ReferenceIdeal.ReadP.val_main_v55 (F := Ideal) (m ((c : Thread nD τ).loc main_arg3)) from h2_w m ρ c _ ((kept m ρ c main_arg3 (by decide)).e6.trans (arg3_3 m ρ c))]
  exact (Cert.ReferenceIdeal.RefOps.ref_v56 _ _ _ _).symm

/-- The aggregation after region 2. -/
theorem s9_xs : W9 m ρ c (Proc.devRef .tc main_v65) = Cert.ReferenceIdeal.ReadP.val_main_v68 (F := Ideal) (m ((c : Thread nD τ).loc main_arg0)) (m ((c : Thread nD τ).loc main_arg1)) (m ((c : Thread nD τ).loc main_arg3)) (m ((c : Thread nD τ).loc main_arg4)) :=
  h3_xs m ρ c _ _ _ _ (s8_h m ρ c)
    ((kept m ρ c main_v3 (by decide)).e8.trans (h0_row m ρ c))
    ((kept m ρ c main_v6 (by decide)).e8.trans (h0_col m ρ c))
    ((kept m ρ c main_v32 (by decide)).e8.trans (h0_nrm m ρ c))
/-- The bias row of that layer. -/
theorem s9_b : W9 m ρ c (Proc.devRef .tc main_v67) = Cert.ReferenceIdeal.ReadP.val_main_v70 (F := Ideal) (m ((c : Thread nD τ).loc main_arg4)) :=
  h3_b m ρ c _ ((kept m ρ c main_arg4 (by decide)).e8.trans (arg4_3 m ρ c))
/-- Region 3: the bias added to every row, clamped at zero. -/
theorem s10_x : W10 m ρ c (Proc.devRef .tc main_v68) = Cert.ReferenceIdeal.ReadP.val_main_v74 (F := Ideal) (m ((c : Thread nD τ).loc main_arg0)) (m ((c : Thread nD τ).loc main_arg1)) (m ((c : Thread nD τ).loc main_arg3)) (m ((c : Thread nD τ).loc main_arg4)) := by
  refine (W10_arr m ρ c 2).trans ((Regions.arr3 (V9 m ρ) c).trans ?_)
  rw [show V9 m ρ c main_v65 = Cert.ReferenceIdeal.ReadP.val_main_v68 (F := Ideal) (m ((c : Thread nD τ).loc main_arg0)) (m ((c : Thread nD τ).loc main_arg1)) (m ((c : Thread nD τ).loc main_arg3)) (m ((c : Thread nD τ).loc main_arg4)) from s9_xs m ρ c,
    show V9 m ρ c main_v67 = Cert.ReferenceIdeal.ReadP.val_main_v70 (F := Ideal) (m ((c : Thread nD τ).loc main_arg4)) from s9_b m ρ c]
  exact (Cert.ReferenceIdeal.RefOps.ref_v74 _ _ _ _).symm

/-! ## Layer 3 -/

/-- Region 4: the node rows times the layer's weight. -/
theorem s12_h : W12 m ρ c (Proc.devRef .tc main_v71) = Cert.ReferenceIdeal.ReadP.val_main_v77 (F := Ideal) (m ((c : Thread nD τ).loc main_arg0)) (m ((c : Thread nD τ).loc main_arg1)) (m ((c : Thread nD τ).loc main_arg3)) (m ((c : Thread nD τ).loc main_arg4)) := by
  refine (W12_arr m ρ c 2).trans ((Regions.arr4 (V11 m ρ) c).trans ?_)
  rw [show V11 m ρ c main_v68 = Cert.ReferenceIdeal.ReadP.val_main_v74 (F := Ideal) (m ((c : Thread nD τ).loc main_arg0)) (m ((c : Thread nD τ).loc main_arg1)) (m ((c : Thread nD τ).loc main_arg3)) (m ((c : Thread nD τ).loc main_arg4)) from (h4_x m ρ c).trans (s10_x m ρ c),
    show V11 m ρ c main_v70 = Cert.ReferenceIdeal.ReadP.val_main_v76 (F := Ideal) (m ((c : Thread nD τ).loc main_arg3)) from h4_w m ρ c _ ((kept m ρ c main_arg3 (by decide)).e10.trans (arg3_3 m ρ c))]
  exact (Cert.ReferenceIdeal.RefOps.ref_v77 _ _ _ _).symm

/-- The aggregation after region 4. -/
theorem s13_xs : W13 m ρ c (Proc.devRef .tc main_v83) = Cert.ReferenceIdeal.ReadP.val_main_v89 (F := Ideal) (m ((c : Thread nD τ).loc main_arg0)) (m ((c : Thread nD τ).loc main_arg1)) (m ((c : Thread nD τ).loc main_arg3)) (m ((c : Thread nD τ).loc main_arg4)) :=
  h5_xs m ρ c _ _ _ _ (s12_h m ρ c)
    ((kept m ρ c main_v3 (by decide)).e12.trans (h0_row m ρ c))
    ((kept m ρ c main_v6 (by decide)).e12.trans (h0_col m ρ c))
    ((kept m ρ c main_v32 (by decide)).e12.trans (h0_nrm m ρ c))
/-- The bias row of that layer. -/
theorem s13_b : W13 m ρ c (Proc.devRef .tc main_v85) = Cert.ReferenceIdeal.ReadP.val_main_v91 (F := Ideal) (m ((c : Thread nD τ).loc main_arg4)) :=
  h5_b m ρ c _ ((kept m ρ c main_arg4 (by decide)).e12.trans (arg4_3 m ρ c))
/-- Region 5: the bias added to every row, clamped at zero. -/
theorem s14_x : W14 m ρ c (Proc.devRef .tc main_v86) = Cert.ReferenceIdeal.ReadP.val_main_v95 (F := Ideal) (m ((c : Thread nD τ).loc main_arg0)) (m ((c : Thread nD τ).loc main_arg1)) (m ((c : Thread nD τ).loc main_arg3)) (m ((c : Thread nD τ).loc main_arg4)) := by
  refine (W14_arr m ρ c 2).trans ((Regions.arr5 (V13 m ρ) c).trans ?_)
  rw [show V13 m ρ c main_v83 = Cert.ReferenceIdeal.ReadP.val_main_v89 (F := Ideal) (m ((c : Thread nD τ).loc main_arg0)) (m ((c : Thread nD τ).loc main_arg1)) (m ((c : Thread nD τ).loc main_arg3)) (m ((c : Thread nD τ).loc main_arg4)) from s13_xs m ρ c,
    show V13 m ρ c main_v85 = Cert.ReferenceIdeal.ReadP.val_main_v91 (F := Ideal) (m ((c : Thread nD τ).loc main_arg4)) from s13_b m ρ c]
  exact (Cert.ReferenceIdeal.RefOps.ref_v95 _ _ _ _).symm

/-! ## Layer 4 -/

/-- Region 6: the node rows times the layer's weight. -/
theorem s16_h : W16 m ρ c (Proc.devRef .tc main_v89) = Cert.ReferenceIdeal.ReadP.val_main_v98 (F := Ideal) (m ((c : Thread nD τ).loc main_arg0)) (m ((c : Thread nD τ).loc main_arg1)) (m ((c : Thread nD τ).loc main_arg3)) (m ((c : Thread nD τ).loc main_arg4)) := by
  refine (W16_arr m ρ c 2).trans ((Regions.arr6 (V15 m ρ) c).trans ?_)
  rw [show V15 m ρ c main_v86 = Cert.ReferenceIdeal.ReadP.val_main_v95 (F := Ideal) (m ((c : Thread nD τ).loc main_arg0)) (m ((c : Thread nD τ).loc main_arg1)) (m ((c : Thread nD τ).loc main_arg3)) (m ((c : Thread nD τ).loc main_arg4)) from (h6_x m ρ c).trans (s14_x m ρ c),
    show V15 m ρ c main_v88 = Cert.ReferenceIdeal.ReadP.val_main_v97 (F := Ideal) (m ((c : Thread nD τ).loc main_arg3)) from h6_w m ρ c _ ((kept m ρ c main_arg3 (by decide)).e14.trans (arg3_3 m ρ c))]
  exact (Cert.ReferenceIdeal.RefOps.ref_v98 _ _ _ _).symm

/-- The aggregation after region 6. -/
theorem s17_xs : W17 m ρ c (Proc.devRef .tc main_v101) = Cert.ReferenceIdeal.ReadP.val_main_v110 (F := Ideal) (m ((c : Thread nD τ).loc main_arg0)) (m ((c : Thread nD τ).loc main_arg1)) (m ((c : Thread nD τ).loc main_arg3)) (m ((c : Thread nD τ).loc main_arg4)) :=
  h7_xs m ρ c _ _ _ _ (s16_h m ρ c)
    ((kept m ρ c main_v3 (by decide)).e16.trans (h0_row m ρ c))
    ((kept m ρ c main_v6 (by decide)).e16.trans (h0_col m ρ c))
    ((kept m ρ c main_v32 (by decide)).e16.trans (h0_nrm m ρ c))
/-- The bias row of that layer. -/
theorem s17_b : W17 m ρ c (Proc.devRef .tc main_v103) = Cert.ReferenceIdeal.ReadP.val_main_v112 (F := Ideal) (m ((c : Thread nD τ).loc main_arg4)) :=
  h7_b m ρ c _ ((kept m ρ c main_arg4 (by decide)).e16.trans (arg4_3 m ρ c))
/-- Region 7: the bias added to every row, clamped at zero. -/
theorem s18_x : W18 m ρ c (Proc.devRef .tc main_v104) = Cert.ReferenceIdeal.ReadP.val_main_v116 (F := Ideal) (m ((c : Thread nD τ).loc main_arg0)) (m ((c : Thread nD τ).loc main_arg1)) (m ((c : Thread nD τ).loc main_arg3)) (m ((c : Thread nD τ).loc main_arg4)) := by
  refine (W18_arr m ρ c 2).trans ((Regions.arr7 (V17 m ρ) c).trans ?_)
  rw [show V17 m ρ c main_v101 = Cert.ReferenceIdeal.ReadP.val_main_v110 (F := Ideal) (m ((c : Thread nD τ).loc main_arg0)) (m ((c : Thread nD τ).loc main_arg1)) (m ((c : Thread nD τ).loc main_arg3)) (m ((c : Thread nD τ).loc main_arg4)) from s17_xs m ρ c,
    show V17 m ρ c main_v103 = Cert.ReferenceIdeal.ReadP.val_main_v112 (F := Ideal) (m ((c : Thread nD τ).loc main_arg4)) from s17_b m ρ c]
  exact (Cert.ReferenceIdeal.RefOps.ref_v116 _ _ _ _).symm

/-! ## The mean over each graph and the perceptron -/

/-- The per-graph mean of the last layer's rows. -/
theorem s19_g : W19 m ρ c (Proc.devRef .tc main_v116) = Cert.ReferenceIdeal.ReadP.val_main_v128 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  h8_g m ρ c _ _ _ _ _ (s18_x m ρ c) ((kept m ρ c main_arg2 (by decide)).e18.trans (arg2_3 m ρ c))

/-- Region 8: the kernel's result buffer holds the reference's result. -/
theorem result_eq : W20 m ρ c (Proc.devRef .tc main_v117)
    = Cert.ReferenceIdeal.ReadP.val_main_v137 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W20_arr m ρ c 5).trans ((Regions.arr8 (V19 m ρ) c).trans ?_)
  rw [show V19 m ρ c main_v116 = Cert.ReferenceIdeal.ReadP.val_main_v128 (F := Ideal) (m ((c : Thread nD τ).loc main_arg0)) (m ((c : Thread nD τ).loc main_arg1)) (m ((c : Thread nD τ).loc main_arg2)) (m ((c : Thread nD τ).loc main_arg3)) (m ((c : Thread nD τ).loc main_arg4)) from s19_g m ρ c,
    show V19 m ρ c main_arg5 = (m ((c : Thread nD τ).loc main_arg5)) from (kept m ρ c main_arg5 (by decide)).e19.trans (arg5_3 m ρ c),
    show V19 m ρ c main_arg6 = (m ((c : Thread nD τ).loc main_arg6)) from (kept m ρ c main_arg6 (by decide)).e19.trans (arg6_3 m ρ c),
    show V19 m ρ c main_arg7 = (m ((c : Thread nD τ).loc main_arg7)) from (kept m ρ c main_arg7 (by decide)).e19.trans (arg7_3 m ρ c),
    show V19 m ρ c main_arg8 = (m ((c : Thread nD τ).loc main_arg8)) from (kept m ρ c main_arg8 (by decide)).e19.trans (arg8_3 m ρ c)]
  exact (Cert.ReferenceIdeal.RefOps.ref_v137 _ _ _ _ _ _ _ _ _).symm

end Cert.KernelIdeal.Sim

end
-- ==== Proof.lean ====
/-
  A four-layer graph convolution network with mean pooling and a two-layer perceptron: the kernel's program against its
  reference, over the extended reals.

  Both programs compute, for node features x [50000,128], edges [2,800000] and a graph id per node,
      norm_e = d^{-1/2}[row_e] · d^{-1/2}[col_e]          (self loops appended; d the in-degree; d^{-1/2} = 0 where d = 0)
      x ← max( Σ_{e : col_e = v} norm_e · (x W_l)[row_e]  + b_l , 0 )        for l = 1..4
      g = (Σ_{v in graph} x_v) / max(|graph|, 1),   result = max(g W₁' + b₁', 0) W₂' + b₂'.
  The kernel's program computes the products x W_l, the bias-and-clamp steps and the perceptron in nine kernel regions
  (the products through a narrower float format, which over the extended reals is the identity) and everything else by
  the same host operations as the reference, in the same order.  So the proof is a walk along the kernel's run: at each
  boundary the live buffer holds the reference's stage of the same meaning (Proof/SimChain.lean), a region's output array
  being one whole-array function of its inputs (Proof/RegionProj.lean, RegionBias.lean, RegionMlp.lean) that the
  reference's operations also compute (Proof/RefOps.lean).  No law of arithmetic beyond the definitions is used, and the
  precondition is not needed: the two results are the same term of the arguments.

  The three frame claims: the two kernel programs by their generated frames; the reference by its run with the result
  dropped.  The idealization rewrote nothing, so `preserves` is `True`.
-/
import proofs.«122397_j86268713107994_1_alg».proof.Defs
import proofs.«122397_j86268713107994_1_alg».proof.Proof.Gen.Kernel
import proofs.«122397_j86268713107994_1_alg».proof.Proof.Gen.Kernel.Frame
import proofs.«122397_j86268713107994_1_alg».proof.Proof.Gen.KernelIdeal
import proofs.«122397_j86268713107994_1_alg».proof.Proof.Gen.KernelIdeal.Frame
import proofs.«122397_j86268713107994_1_alg».proof.Proof.Gen.ReferenceIdeal
import proofs.«122397_j86268713107994_1_alg».proof.Proof.Gen.Pre_finite_inputs
import proofs.«122397_j86268713107994_1_alg».proof.Proof.RefRunP
import proofs.«122397_j86268713107994_1_alg».proof.Proof.RefReadP
import proofs.«122397_j86268713107994_1_alg».proof.Proof.RunResult
import proofs.«122397_j86268713107994_1_alg».proof.Proof.SimChain
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The idealization changed no operation. -/
theorem preserves : Cert.preserves_Kernel_KernelIdeal := trivial

/-- Both runs end; the kernel's result buffer holds the last boundary's contents, which are the reference's last stage
    of the kernel's arguments; the reference's result is that stage of its own arguments; and the arguments agree. -/
theorem algebraic : Cert.algebraic_KernelIdeal_ReferenceIdeal := by
  intro m ρ m' ρ' _ hagree
  refine ⟨fun c => Cert.KernelIdeal.Gen.W20 m ρ c (Proc.devRef .tc Cert.KernelIdeal.main_v117),
    Cert.KernelIdeal.Whole.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8⟩ := hagree c
  rw [Cert.ReferenceIdeal.ReadP.val_main_v137_eq, h0, h1, h2, h3, h4, h5, h6, h7, h8]
  exact (Cert.KernelIdeal.Sim.result_eq m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
